-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x512 : Shape := ⟨3, ![8, 512, 512]⟩
abbrev S8x512x16x512 : Shape := ⟨4, ![8, 512, 16, 512]⟩
abbrev S8x512 : Shape := ⟨2, ![8, 512]⟩
abbrev S2048x512 : Shape := ⟨2, ![2048, 512]⟩
abbrev S512 : Shape := ⟨1, ![512]⟩
abbrev S512x1 : Shape := ⟨2, ![512, 1]⟩
abbrev S1 : Shape := ⟨1, ![1]⟩
abbrev S_ : Shape := ⟨0, ![]⟩

class Facts : Prop where
  bcast_S_S8x512x512 : S_.BroadcastsInDim S8x512x512 (![] : Fin 0 → Fin S8x512x512.rank)
  reducesTo_S8x512x512_S_d0_1_2 : S8x512x512.ReducesTo [0, 1, 2] S_
  h_S_ : 0 < S_.numel
  bcast_S_S8x512x16x512 : S_.BroadcastsInDim S8x512x16x512 (![] : Fin 0 → Fin S8x512x16x512.rank)
  reducesTo_S8x512x16x512_S_d0_1_2_3 : S8x512x16x512.ReducesTo [0, 1, 2, 3] S_
  bcast_S_S8x512 : S_.BroadcastsInDim S8x512 (![] : Fin 0 → Fin S8x512.rank)
  reducesTo_S8x512_S_d0_1 : S8x512.ReducesTo [0, 1] S_
  bcast_S_S2048x512 : S_.BroadcastsInDim S2048x512 (![] : Fin 0 → Fin S2048x512.rank)
  reducesTo_S2048x512_S_d0_1 : S2048x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S2048x512 .f32) (main_arg5 : FVec F S512 .f32) (main_arg6 : FVec F S512x1 .f32) (main_arg7 : FVec F S1 .f32) (main_v13 : IVec S_ 1) (main_v16 : IVec S8x512 1) : IVec S_ 1 :=
  let main_c_5 : IVec S_ 1 := constantI S_ 1 1#1
  let main_v17 : IVec S_ 1 := (fun x v => Host.reduce IntOp.andi x v reducesTo_S8x512_S_d0_1 h_S_) main_v16 main_c_5
  let main_v18 : IVec S_ 1 := andi main_v13 main_v17
  let main_v19 : FVec F S2048x512 .f32 := Host.absf main_arg4
  let main_cst_6 : FVec F S_ .f32 := constant S_ .f32 0x7F800000#32
  let main_v20 : FVec F S2048x512 .f32 := broadcastInDim S2048x512 ![] bcast_S_S2048x512 main_cst_6
  let main_v21 : IVec S2048x512 1 := cmpf .olt main_v19 main_v20
  let main_c_7 : IVec S_ 1 := constantI S_ 1 1#1
  let main_v22 : IVec S_ 1 := (fun x v => Host.reduce IntOp.andi x v reducesTo_S2048x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x1 .f32 := Host.absf main_arg6
  let main_cst_10 : FVec F S_ .f32 := constant S_ .f32 0x7F800000#32
  let main_v30 : FVec F S512x1 .f32 := broadcastInDim S512x1 ![] bcast_S_S512x1 main_cst_10
  let main_v31 : IVec S512x1 1 := cmpf .olt main_v29 main_v30
  let main_c_11 : IVec S_ 1 := constantI S_ 1 1#1
  let main_v32 : IVec S_ 1 := (fun x v => Host.reduce IntOp.andi x v reducesTo_S512x1_S_d0_1 h_S_) main_v31 main_c_11
  let main_v33 : IVec S_ 1 := andi main_v28 main_v32
  fn_part2 (F := F) main_arg7 main_v33

def fn {F : FTy → Type} [FloatOps F] (main_arg0 : FVec F S8x512x512 .f32) (main_arg1 : FVec F S8x512x16x512 .f32) (main_arg2 : FVec F S8x512 .f32) (main_arg3 : FVec F S8x512 .f32) (main_arg4 : FVec F S2048x512 .f32) (main_arg5 : FVec F S512 .f32) (main_arg6 : FVec F S512x1 .f32) (main_arg7 : FVec F S1 .f32) : IVec S_ 1 :=
  let main_v0 : FVec F S8x512x512 .f32 := Host.absf main_arg0
  let main_cst : FVec F S_ .f32 := constant S_ .f32 0x7F800000#32
  let main_v1 : FVec F S8x512x512 .f32 := broadcastInDim S8x512x512 ![] bcast_S_S8x512x512 main_cst
  let main_v2 : IVec S8x512x512 1 := cmpf .olt main_v0 main_v1
  let main_c : IVec S_ 1 := constantI S_ 1 1#1
  let main_v3 : IVec S_ 1 := (fun x v => Host.reduce IntOp.andi x v reducesTo_S8x512x512_S_d0_1_2 h_S_) main_v2 main_c
  let main_v4 : FVec F S8x512x16x512 .f32 := Host.absf main_arg1
  let main_cst_0 : FVec F S_ .f32 := constant S_ .f32 0x7F800000#32
  let main_v5 : FVec F S8x512x16x512 .f32 := broadcastInDim S8x512x16x512 ![] bcast_S_S8x512x16x512 main_cst_0
  let main_v6 : IVec S8x512x16x512 1 := cmpf .olt main_v4 main_v5
  let main_c_1 : IVec S_ 1 := constantI S_ 1 1#1
  let main_v7 : IVec S_ 1 := (fun x v => Host.reduce IntOp.andi x v reducesTo_S8x512x16x512_S_d0_1_2_3 h_S_) main_v6 main_c_1
  let main_v8 : IVec S_ 1 := andi main_v3 main_v7
  let main_v9 : FVec F S8x512 .f32 := Host.absf main_arg2
  let main_cst_2 : FVec F S_ .f32 := constant S_ .f32 0x7F800000#32
  let main_v10 : FVec F S8x512 .f32 := broadcastInDim S8x512 ![] bcast_S_S8x512 main_cst_2
  let main_v11 : IVec S8x512 1 := cmpf .olt main_v9 main_v10
  let main_c_3 : IVec S_ 1 := constantI S_ 1 1#1
  let main_v12 : IVec S_ 1 := (fun x v => Host.reduce IntOp.andi x v reducesTo_S8x512_S_d0_1 h_S_) main_v11 main_c_3
  let main_v13 : IVec S_ 1 := andi main_v8 main_v12
  let main_v14 : FVec F S8x512 .f32 := Host.absf main_arg3
  let main_cst_4 : FVec F S_ .f32 := constant S_ .f32 0x7F800000#32
  let main_v15 : FVec F S8x512 .f32 := broadcastInDim S8x512 ![] bcast_S_S8x512 main_cst_4
  let main_v16 : IVec S8x512 1 := cmpf .olt main_v14 main_v15
  fn_part1 (F := F) main_arg4 main_arg5 main_arg6 main_arg7 main_v13 main_v16
-- ==== Kernel.lean ====
abbrev S8x512x512 : Shape := ⟨3, ![8, 512, 512]⟩
abbrev S8x512x16x512 : Shape := ⟨4, ![8, 512, 16, 512]⟩
abbrev S8x512 : Shape := ⟨2, ![8, 512]⟩
abbrev S2048x512 : Shape := ⟨2, ![2048, 512]⟩
abbrev S512 : Shape := ⟨1, ![512]⟩
abbrev S512x1 : Shape := ⟨2, ![512, 1]⟩
abbrev S1 : Shape := ⟨1, ![1]⟩
abbrev S512x512 : Shape := ⟨2, ![512, 512]⟩
abbrev S1x512 : Shape := ⟨2, ![1, 512]⟩
abbrev S8x1x512 : Shape := ⟨3, ![8, 1, 512]⟩
abbrev S1024x512 : Shape := ⟨2, ![1024, 512]⟩
abbrev S8x1x8192 : Shape := ⟨3, ![8, 1, 8192]⟩
abbrev S1x128x512 : Shape := ⟨3, ![1, 128, 512]⟩
abbrev S1x128x16x512 : Shape := ⟨4, ![1, 128, 16, 512]⟩
abbrev S1x1x512 : Shape := ⟨3, ![1, 1, 512]⟩
abbrev S1x1x2048 : Shape := ⟨3, ![1, 1, 2048]⟩
abbrev S128x512 : Shape := ⟨2, ![128, 512]⟩
abbrev S128x16x512 : Shape := ⟨3, ![128, 16, 512]⟩
abbrev S128x1x512 : Shape := ⟨3, ![128, 1, 512]⟩
abbrev S128x16 : Shape := ⟨2, ![128, 16]⟩
abbrev S_ : Shape := ⟨0, ![]⟩
abbrev S8x8192 : Shape := ⟨2, ![8, 8192]⟩

abbrev nBuf : Space → Nat
  | .hbm => 27
  | .vmem => 10
  | .smem => 0
  | _ => 0

abbrev bufTy : (tb : Table) → Fin (tcTables nBuf tb) → BufTy
  | .hbm, ⟨0, _⟩ => ⟨S8x512x512, .f32⟩
  | .hbm, ⟨1, _⟩ => ⟨S8x512x16x512, .f32⟩
  | .hbm, ⟨2, _⟩ => ⟨S8x512, .f32⟩
  | .hbm, ⟨3, _⟩ => ⟨S8x512, .f32⟩
  | .hbm, ⟨4, _⟩ => ⟨S2048x512, .f32⟩
  | .hbm, ⟨5, _⟩ => ⟨S512, .f32⟩
  | .hbm, ⟨6, _⟩ => ⟨S512x1, .f32⟩
  | .hbm, ⟨7, _⟩ => ⟨S1, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S512x512, .f32⟩
  | .hbm, ⟨12, _⟩ => ⟨S8x512, .f32⟩
  | .hbm, ⟨13, _⟩ => ⟨S8x512, .f32⟩
  | .hbm, ⟨14, _⟩ => ⟨S8x512, .f32⟩
  | .hbm, ⟨15, _⟩ => ⟨S1x512, .f32⟩
  | .hbm, ⟨16, _⟩ => ⟨S8x512, .f32⟩
  | .hbm, ⟨17, _⟩ => ⟨S8x512, .f32⟩
  | .hbm, ⟨18, _⟩ => ⟨S8x1x512, .f32⟩
  | .hbm, ⟨19, _⟩ => ⟨S1024x512, .f32⟩
  | .hbm, ⟨20, _⟩ => ⟨S1024x512, .bf16⟩
  | .hbm, ⟨21, _⟩ => ⟨S1x512, .f32⟩
  | .hbm, ⟨22, _⟩ => ⟨S8x1x8192, .f32⟩
  | .hbm, ⟨23, _⟩ => ⟨S_, .f32⟩
  | .hbm, ⟨24, _⟩ => ⟨S8x1x8192, .f32⟩
  | .hbm, ⟨25, _⟩ => ⟨S8x1x8192, .f32⟩
  | .hbm, ⟨26, _⟩ => ⟨S8x8192, .f32⟩
  | .local _ .vmem, ⟨0, _⟩ => ⟨S1x128x512, .f32⟩
  | .local _ .vmem, ⟨1, _⟩ => ⟨S1x128x512, .f32⟩
  | .local _ .vmem, ⟨2, _⟩ => ⟨S1x128x16x512, .f32⟩
  | .local _ .vmem, ⟨3, _⟩ => ⟨S1x128x16x512, .f32⟩
  | .local _ .vmem, ⟨4, _⟩ => ⟨S1x1x512, .f32⟩
  | .local _ .vmem, ⟨5, _⟩ => ⟨S1x1x512, .f32⟩
  | .local _ .vmem, ⟨6, _⟩ => ⟨S1024x512, .bf16⟩
  | .local _ .vmem, ⟨7, _⟩ => ⟨S1x512, .f32⟩
  | .local _ .vmem, ⟨8, _⟩ => ⟨S1x1x2048, .f32⟩
  | .local _ .vmem, ⟨9, _⟩ => ⟨S1x1x2048, .f32⟩
  | _, _ => ⟨S8x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  slices_S2048x512_S512x512_0_0 : S2048x512.Slices ![0, 0] S512x512
  slices_S2048x512_S512x512_512_0 : S2048x512.Slices ![512, 0] S512x512
  slices_S2048x512_S512x512_1024_0 : S2048x512.Slices ![1024, 0] S512x512
  slices_S2048x512_S512x512_1536_0 : S2048x512.Slices ![1536, 0] S512x512
  bcast_S512_S1x512_1 : S512.BroadcastsInDim S1x512 (![1] : Fin 1 → Fin S1x512.rank)
  bcast_S1x512_S8x512_0_1 : S1x512.BroadcastsInDim S8x512 (![0, 1] : Fin 2 → Fin S8x512.rank)
  shapeCasts_S8x512_S8x1x512 : S8x512.ShapeCasts S8x1x512
  concatenates_S512x512_S512x512_S1024x512_d0 : Shape.Concatenates [S512x512, S512x512] S1024x512 0
  bitsLt_bf16_f32 : FTy.bits .bf16 < FTy.bits .f32
  shapeCasts_S512x1_S1x512 : S512x1.ShapeCasts S1x512
  inb_S1024x512_S512x512_0_0 : ∀ a, (![0, 0] : Fin 2 → Nat) a + S512x512.size a ≤ S1024x512.size a
  h_S512x512 : 0 < S512x512.numel
  shapeCasts_S512x512_S512x512 : S512x512.ShapeCasts S512x512
  inb_S1024x512_S512x512_512_0 : ∀ a, (![512, 0] : Fin 2 → Nat) a + S512x512.size a ≤ S1024x512.size a
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S128x512 : S1x512.Broadcasts S128x512
  inb_S1x128x16x512_S1x128x16x512_0_0_0_0 : ∀ a, (![0, 0, 0, 0] : Fin 4 → Nat) a + S1x128x16x512.size a ≤ S1x128x16x512.size a
  h_S1x128x16x512 : 0 < S1x128x16x512.numel
  shapeCasts_S1x128x16x512_S128x16x512 : S1x128x16x512.ShapeCasts S128x16x512
  shapeCasts_S128x16x512_S2048x512 : S128x16x512.ShapeCasts S2048x512
  shapeCasts_S2048x512_S128x16x512 : S2048x512.ShapeCasts S128x16x512
  shapeCasts_S128x512_S128x1x512 : S128x512.ShapeCasts S128x1x512
  broadcasts_S128x1x512_S128x16x512 : S128x1x512.Broadcasts S128x16x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S1x512_S1x1x512 : S1x512.ShapeCasts S1x1x512
  broadcasts_S1x1x512_S128x16x512 : S1x1x512.Broadcasts S128x16x512
  reduces_S128x16x512_S128x16 : S128x16x512.Reduces [2] S128x16
  shapeCasts_S128x16_S1x1x2048 : S128x16.ShapeCasts S1x1x2048
  inb_S1x1x2048_S1x1x2048_0_0_0 : ∀ a, (![0, 0, 0] : Fin 3 → Nat) a + S1x1x2048.size a ≤ S1x1x2048.size a
  h_S1x1x2048 : 0 < S1x1x2048.numel
  shapeCasts_S1_S_ : S1.ShapeCasts S_
  bcast_S_S8x1x8192 : S_.BroadcastsInDim S8x1x8192 (![] : Fin 0 → Fin S8x1x8192.rank)
  shapeCasts_S8x1x8192_S8x8192 : S8x1x8192.ShapeCasts S8x8192
  dot_S8x512_S512x512_S8x512_1_0_0_1_n_n_wf : DotDims.WF S8x512 S512x512 S8x512 [1] [0] [0] [1] [] []
  dot_S128x512_S512x512_S128x512_1_0_0_1_n_n_wf : DotDims.WF S128x512 S512x512 S128x512 [1] [0] [0] [1] [] []
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x512.size a ≤ S8x512x512.size a
  hwx0_0 : ∀ i : grid0.Coords, EltTy.bits .f32 = 32 ∨ (Rect.block (s := S8x512x512) S1x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x16x512.size a ≤ S8x512x16x512.size a
  hwx0_1 : ∀ i : grid0.Coords, EltTy.bits .f32 = 32 ∨ (Rect.block (s := S8x512x16x512) S1x128x16x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S8x1x512.size a
  hwx0_2 : ∀ i : grid0.Coords, EltTy.bits .f32 = 32 ∨ (Rect.block (s := S8x1x512) S1x1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x512.size a
  hwx0_3 : ∀ i : grid0.Coords, EltTy.bits .bf16 = 32 ∨ (Rect.block (s := S1024x512) S1024x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x2048.size a ≤ S8x1x8192.size a
  hwx0_5 : ∀ i : grid0.Coords, EltTy.bits .f32 = 32 ∨ (Rect.block (s := S8x1x8192) S1x1x2048.size (cc0_transform_5 i) (hinb0_5 i)).WholeWords (EltTy.packing .f32)

variable [Facts₀]

def dot_S8x512_S512x512_S8x512_1_0_0_1_n_n : DotDims S8x512 S512x512 S8x512 where
  lhsContracting := [1]
  rhsContracting := [0]
  lhsNonContracting := [0]
  rhsNonContracting := [1]
  lhsBatch := []
  rhsBatch := []
  wf := dot_S8x512_S512x512_S8x512_1_0_0_1_n_n_wf
def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg0) S1x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x16x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1024x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x1x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x512x512 : Shape := ⟨3, ![8, 512, 512]⟩
abbrev S8x512x16x512 : Shape := ⟨4, ![8, 512, 16, 512]⟩
abbrev S8x512 : Shape := ⟨2, ![8, 512]⟩
abbrev S2048x512 : Shape := ⟨2, ![2048, 512]⟩
abbrev S512 : Shape := ⟨1, ![512]⟩
abbrev S512x1 : Shape := ⟨2, ![512, 1]⟩
abbrev S1 : Shape := ⟨1, ![1]⟩
abbrev S512x512 : Shape := ⟨2, ![512, 512]⟩
abbrev S8x512x1x512 : Shape := ⟨4, ![8, 512, 1, 512]⟩
abbrev S8x1x1x512 : Shape := ⟨4, ![8, 1, 1, 512]⟩
abbrev S1x1x1x512 : Shape := ⟨4, ![1, 1, 1, 512]⟩
abbrev S_ : Shape := ⟨0, ![]⟩
abbrev S8x512x16x1 : Shape := ⟨4, ![8, 512, 16, 1]⟩
abbrev S8x512x16 : Shape := ⟨3, ![8, 512, 16]⟩
abbrev S8x8192 : Shape := ⟨2, ![8, 8192]⟩

abbrev nBuf : Space → Nat
  | .hbm => 37
  | .vmem => 0
  | .smem => 0
  | _ => 0

abbrev bufTy : (tb : Table) → Fin (tcTables nBuf tb) → BufTy
  | .hbm, ⟨0, _⟩ => ⟨S8x512x512, .f32⟩
  | .hbm, ⟨1, _⟩ => ⟨S8x512x16x512, .f32⟩
  | .hbm, ⟨2, _⟩ => ⟨S8x512, .f32⟩
  | .hbm, ⟨3, _⟩ => ⟨S8x512, .f32⟩
  | .hbm, ⟨4, _⟩ => ⟨S2048x512, .f32⟩
  | .hbm, ⟨5, _⟩ => ⟨S512, .f32⟩
  | .hbm, ⟨6, _⟩ => ⟨S512x1, .f32⟩
  | .hbm, ⟨7, _⟩ => ⟨S1, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S512x512, .f32⟩
  | .hbm, ⟨12, _⟩ => ⟨S8x512x512, .f32⟩
  | .hbm, ⟨13, _⟩ => ⟨S8x512x1x512, .f32⟩
  | .hbm, ⟨14, _⟩ => ⟨S8x512, .f32⟩
  | .hbm, ⟨15, _⟩ => ⟨S8x1x1x512, .f32⟩
  | .hbm, ⟨16, _⟩ => ⟨S8x512x1x512, .f32⟩
  | .hbm, ⟨17, _⟩ => ⟨S8x512x1x512, .f32⟩
  | .hbm, ⟨18, _⟩ => ⟨S8x512, .f32⟩
  | .hbm, ⟨19, _⟩ => ⟨S8x1x1x512, .f32⟩
  | .hbm, ⟨20, _⟩ => ⟨S8x512x1x512, .f32⟩
  | .hbm, ⟨21, _⟩ => ⟨S8x512x1x512, .f32⟩
  | .hbm, ⟨22, _⟩ => ⟨S8x512x16x512, .f32⟩
  | .hbm, ⟨23, _⟩ => ⟨S8x512x16x512, .f32⟩
  | .hbm, ⟨24, _⟩ => ⟨S8x512x16x512, .f32⟩
  | .hbm, ⟨25, _⟩ => ⟨S1x1x1x512, .f32⟩
  | .hbm, ⟨26, _⟩ => ⟨S8x512x16x512, .f32⟩
  | .hbm, ⟨27, _⟩ => ⟨S8x512x16x512, .f32⟩
  | .hbm, ⟨28, _⟩ => ⟨S_, .f32⟩
  | .hbm, ⟨29, _⟩ => ⟨S8x512x16x512, .f32⟩
  | .hbm, ⟨30, _⟩ => ⟨S8x512x16x512, .f32⟩
  | .hbm, ⟨31, _⟩ => ⟨S8x512x16x1, .f32⟩
  | .hbm, ⟨32, _⟩ => ⟨S8x512x16, .f32⟩
  | .hbm, ⟨33, _⟩ => ⟨S_, .f32⟩
  | .hbm, ⟨34, _⟩ => ⟨S8x512x16, .f32⟩
  | .hbm, ⟨35, _⟩ => ⟨S8x512x16, .f32⟩
  | .hbm, ⟨36, _⟩ => ⟨S8x8192, .f32⟩
  | _, _ => ⟨S8x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_cst : Ref sig .tc := ⟨.hbm, 28, rfl⟩
abbrev main_call0_v0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]

class Facts₀ : Prop where
  slices_S2048x512_S512x512_0_0 : S2048x512.Slices ![0, 0] S512x512
  slices_S2048x512_S512x512_512_0 : S2048x512.Slices ![512, 0] S512x512
  slices_S2048x512_S512x512_1024_0 : S2048x512.Slices ![1024, 0] S512x512
  slices_S2048x512_S512x512_1536_0 : S2048x512.Slices ![1536, 0] S512x512
  bcast_S8x512x512_S8x512x1x512_0_1_3 : S8x512x512.BroadcastsInDim S8x512x1x512 (![0, 1, 3] : Fin 3 → Fin S8x512x1x512.rank)
  bcast_S8x512_S8x1x1x512_0_3 : S8x512.BroadcastsInDim S8x1x1x512 (![0, 3] : Fin 2 → Fin S8x1x1x512.rank)
  bcast_S8x1x1x512_S8x512x1x512_0_1_2_3 : S8x1x1x512.BroadcastsInDim S8x512x1x512 (![0, 1, 2, 3] : Fin 4 → Fin S8x512x1x512.rank)
  bcast_S8x512x1x512_S8x512x16x512_0_1_2_3 : S8x512x1x512.BroadcastsInDim S8x512x16x512 (![0, 1, 2, 3] : Fin 4 → Fin S8x512x16x512.rank)
  bcast_S512_S1x1x1x512_3 : S512.BroadcastsInDim S1x1x1x512 (![3] : Fin 1 → Fin S1x1x1x512.rank)
  bcast_S1x1x1x512_S8x512x16x512_0_1_2_3 : S1x1x1x512.BroadcastsInDim S8x512x16x512 (![0, 1, 2, 3] : Fin 4 → Fin S8x512x16x512.rank)
  bcast_S_S8x512x16x512 : S_.BroadcastsInDim S8x512x16x512 (![] : Fin 0 → Fin S8x512x16x512.rank)
  shapeCasts_S8x512x16x1_S8x512x16 : S8x512x16x1.ShapeCasts S8x512x16
  shapeCasts_S1_S_ : S1.ShapeCasts S_
  bcast_S_S8x512x16 : S_.BroadcastsInDim S8x512x16 (![] : Fin 0 → Fin S8x512x16.rank)
  shapeCasts_S8x512x16_S8x8192 : S8x512x16.ShapeCasts S8x8192
  dot_S8x512x512_S512x512_S8x512x512_2_0_01_1_n_n_wf : DotDims.WF S8x512x512 S512x512 S8x512x512 [2] [0] [0, 1] [1] [] []
  dot_S8x512_S512x512_S8x512_1_0_0_1_n_n_wf : DotDims.WF S8x512 S512x512 S8x512 [1] [0] [0] [1] [] []
  dot_S8x512x16x512_S512x512_S8x512x16x512_3_0_012_1_n_n_wf : DotDims.WF S8x512x16x512 S512x512 S8x512x16x512 [3] [0] [0, 1, 2] [1] [] []
  dot_S8x512x16x512_S512x1_S8x512x16x1_3_0_012_1_n_n_wf : DotDims.WF S8x512x16x512 S512x1 S8x512x16x1 [3] [0] [0, 1, 2] [1] [] []

variable [Facts₀]

def dot_S8x512x512_S512x512_S8x512x512_2_0_01_1_n_n : DotDims S8x512x512 S512x512 S8x512x512 where
  lhsContracting := [2]
  rhsContracting := [0]
  lhsNonContracting := [0, 1]
  rhsNonContracting := [1]
  lhsBatch := []
  rhsBatch := []
  wf := dot_S8x512x512_S512x512_S8x512x512_2_0_01_1_n_n_wf
def dot_S8x512_S512x512_S8x512_1_0_0_1_n_n : DotDims S8x512 S512x512 S8x512 where
  lhsContracting := [1]
  rhsContracting := [0]
  lhsNonContracting := [0]
  rhsNonContracting := [1]
  lhsBatch := []
  rhsBatch := []
  wf := dot_S8x512_S512x512_S8x512_1_0_0_1_n_n_wf
def dot_S8x512x16x512_S512x512_S8x512x16x512_3_0_012_1_n_n : DotDims S8x512x16x512 S512x512 S8x512x16x512 where
  lhsContracting := [3]
  rhsContracting := [0]
  lhsNonContracting := [0, 1, 2]
  rhsNonContracting := [1]
  lhsBatch := []
  rhsBatch := []
  wf := dot_S8x512x16x512_S512x512_S8x512x16x512_3_0_012_1_n_n_wf
def dot_S8x512x16x512_S512x1_S8x512x16x1_3_0_012_1_n_n : DotDims S8x512x16x512 S512x1 S8x512x16x1 where
  lhsContracting := [3]
  rhsContracting := [0]
  lhsNonContracting := [0, 1, 2]
  rhsNonContracting := [1]
  lhsBatch := []
  rhsBatch := []
  wf := dot_S8x512x16x512_S512x1_S8x512x16x1_3_0_012_1_n_n_wf

class Facts : Prop extends Facts₀ where

variable [Facts]
-- ==== Proof.ScoreSpec.lean ====
/-
  The scorer as one function of its eight argument arrays, on the extended reals.

  For sample `b`, node `n` and location `k` the hidden layer's pre-activation at feature `f` is the sum of four inner
  products with four 512-row blocks of the first weight matrix `W1` — the node's embedding with rows 0–511, the sample's
  graph embedding with rows 512–1023, the sample's global location embedding with rows 1024–1535, the location's own
  embedding with rows 1536–2047 — plus the bias `b1 f`. The score of `(b, n, k)` is the inner product of the rectified
  pre-activations (each replaced by its maximum with zero) with the one column of the second weight matrix `W2`, plus
  the scalar bias `b2`. The result lists, for each sample, the scores of its pairs `(n, k)` at position `16 · n + k`.

  The five terms of a pre-activation may be added in any order and grouping: addition of extended reals is commutative
  and associative at the infinities too, so no finiteness is needed for `regroup`. One program adds them from left to
  right as written above; the other first adds the two per-sample terms and the bias, then the node's term, then the
  location's: `regroup` is the equation between the two.
-/
import Idealize.ShloMosaic.PureOps.Ideal
import Idealize.ShloMosaic.Lib.ValueIdx

noncomputable section

namespace Cert.Scorer

open Idealize.ShloMosaic Idealize.ShloMosaic.ValueIdx
open scoped BigOperators

/-- Row `o + d` of the first weight matrix: row `d` of the 512-row block that starts at row `o`. -/
abbrev wrow (o : ℕ) (h : o + 512 ≤ 2048) (d : Fin 512) : Fin 2048 := ⟨o + d.val, by have := d.isLt; omega⟩

/-- The zero both programs rectify against, kept as the word they spell. -/
abbrev zero : EReal := Ideal.ofBits .f32 0x00000000#32

variable (node : FVec Ideal ⟨3, ![8, 512, 512]⟩ .f32) (loc : FVec Ideal ⟨4, ![8, 512, 16, 512]⟩ .f32)
  (graph locg : FVec Ideal ⟨2, ![8, 512]⟩ .f32) (W1 : FVec Ideal ⟨2, ![2048, 512]⟩ .f32)
  (b1 : FVec Ideal ⟨1, ![512]⟩ .f32) (W2 : FVec Ideal ⟨2, ![512, 1]⟩ .f32) (b2 : FVec Ideal ⟨1, ![1]⟩ .f32)

/-- The node's term: its embedding against rows 0–511 of `W1`. -/
def nodeTerm (b : Fin 8) (n : Fin 512) (f : Fin 512) : EReal :=
  ∑ d : Fin 512, node (ix3 b n d) * W1 (ix2 (wrow 0 (by omega) d) f)
/-- The sample's graph term: the graph embedding against rows 512–1023 of `W1`. -/
def graphTerm (b : Fin 8) (f : Fin 512) : EReal :=
  ∑ d : Fin 512, graph (ix2 b d) * W1 (ix2 (wrow 512 (by omega) d) f)
/-- The sample's global location term: its embedding against rows 1024–1535 of `W1`. -/
def locgTerm (b : Fin 8) (f : Fin 512) : EReal :=
  ∑ d : Fin 512, locg (ix2 b d) * W1 (ix2 (wrow 1024 (by omega) d) f)
/-- The location's term: its embedding against rows 1536–2047 of `W1`. -/
def locTerm (b : Fin 8) (n : Fin 512) (k : Fin 16) (f : Fin 512) : EReal :=
  ∑ d : Fin 512, loc (ix4 b n k d) * W1 (ix2 (wrow 1536 (by omega) d) f)

/-- The pre-activation of feature `f` for `(b, n, k)`: the four terms and the bias, added from left to right. -/
def hidden (b : Fin 8) (n : Fin 512) (k : Fin 16) (f : Fin 512) : EReal :=
  (((nodeTerm node W1 b n f + graphTerm graph W1 b f) + locgTerm locg W1 b f) + locTerm loc W1 b n k f) + b1 (ix1 f)

/-- The score of `(b, n, k)` before the output bias: the rectified pre-activations against the column of `W2`. -/
def rawScore (b : Fin 8) (n : Fin 512) (k : Fin 16) : EReal :=
  ∑ f : Fin 512, max (hidden node loc graph locg W1 b1 b n k f) zero * W2 (ix2 f (0 : Fin 1))

/-- The raw score of the pair at position `j = 16 · n + k` of sample `b`. -/
def rawScoreAt (b : Fin 8) (j : Fin 8192) : EReal :=
  rawScore node loc graph locg W1 b1 W2 b ⟨j.val / 16, by have := j.isLt; omega⟩ ⟨j.val % 16, by omega⟩

/-- THE RESULT: at `(b, j)` the raw score of sample `b`'s pair number `j`, plus the output bias. -/
def scores : FVec Ideal ⟨2, ![8, 8192]⟩ .f32 := fun i =>
  rawScoreAt node loc graph locg W1 b1 W2 ⟨(i 0).val, idx2_lt0 i⟩ ⟨(i 1).val, idx2_lt1 i⟩ + b2 (ix1 (0 : Fin 1))

/-- The five terms of a pre-activation in the other program's grouping: location + (node + ((graph + global) + bias)). -/
theorem regroup (a g l c e : EReal) : c + (a + ((g + l) + e)) = (((a + g) + l) + c) + e := by
  abel

/-- The raw score with each pre-activation added in that other grouping. -/
theorem rawScore_regrouped (b : Fin 8) (n : Fin 512) (k : Fin 16) :
    rawScore node loc graph locg W1 b1 W2 b n k
      = ∑ f : Fin 512,
          max (locTerm loc W1 b n k f
              + (nodeTerm node W1 b n f + ((graphTerm graph W1 b f + locgTerm locg W1 b f) + b1 (ix1 f)))) zero
            * W2 (ix2 f (0 : Fin 1)) := by
  unfold rawScore hidden
  refine Finset.sum_congr rfl fun f _ => ?_
  rw [regroup]

/-- Node `128 · ni + p`: node `p` of the `ni`-th run of 128 consecutive nodes. -/
abbrev nodeOf (ni : Fin 4) (p : Fin 128) : Fin 512 := ⟨ni.val * 128 + p.val, by have := ni.isLt; have := p.isLt; omega⟩

/-- A sample's positions `2048 · ni … 2048 · ni + 2047` hold the pairs of its `ni`-th run of 128 nodes: position
    `2048 · ni + (16 · p + q)` is the pair (node `128 · ni + p`, location `q`). -/
theorem rawScoreAt_block (b : Fin 8) (ni : Fin 4) (p : Fin 128) (q : Fin 16) (j : Fin 2048)
    (hj : j.val = p.val * 16 + q.val) (h : ni.val * 2048 + j.val < 8192) :
    rawScoreAt node loc graph locg W1 b1 W2 b ⟨ni.val * 2048 + j.val, h⟩
      = rawScore node loc graph locg W1 b1 W2 b (nodeOf ni p) q := by
  unfold rawScoreAt
  have hq := q.isLt
  refine congrArg₂ (rawScore node loc graph locg W1 b1 W2 b) (Fin.ext ?_) (Fin.ext ?_)
  · show (ni.val * 2048 + j.val) / 16 = ni.val * 128 + p.val
    omega
  · show (ni.val * 2048 + j.val) % 16 = q.val
    omega

end Cert.Scorer

end
-- ==== Proof.LibRowPairs.lean ====
/-
  Rows indexed by a pair, read at an index.

  A batch of `a · b` rows of length `c` is held either as a matrix `[n, c]` with `n = a · b`, row `p · b + q` being
  the row of the pair `(p, q)`, or as an array `[a, b, c]`; one value per pair is held either as `[a, b]` or as one line
  `[1, 1, n]`. A shape cast keeps the row-major position of every element, so reading one form at its index reads the
  other form at the index of the same pair. That `n = a · b` is part of the cast's hypothesis; the statements only need
  the row's number written as `p · b + q`.
-/
import Idealize.ShloMosaic.Lib.Pipeline.Value
import Idealize.ShloMosaic.Lib.ValueIdx

namespace Idealize.ShloMosaic.RowPairs

open Idealize.ShloMosaic Idealize.ShloMosaic.ValueIdx

variable {α : Type}

/-- An `[a, b, c]` array cast to the matrix `[n, c]` reads, at row `p · b + q` and column `k`, the array at `(p, q, k)`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (k : Fin c) (r : Fin n)
    (hr : r.val = p.val * b + q.val) :
    shapeCast ⟨2, ![n, c]⟩ x h (ix2 r k) = x (ix3 p q k) :=
  shapeCast_apply x h _ _ (by
    rw [Shape.rowMajor_val_three, Shape.rowMajor_val_two]
    show (p.val * b + q.val) * c + k.val = r.val * c + k.val
    rw [hr])

/-- The matrix `[n, c]` cast to `[a, b, c]` reads, at `(p, q, k)`, the matrix at row `p · b + q` and column `k`. -/
theorem shapeCast_nc_abc_apply {a b c n : ℕ} (y : (⟨2, ![n, c]⟩ : Shape).Idx → α)
    (h : (⟨2, ![n, c]⟩ : Shape).ShapeCasts ⟨3, ![a, b, c]⟩) (p : Fin a) (q : Fin b) (k : Fin c) (r : Fin n)
    (hr : r.val = p.val * b + q.val) :
    shapeCast ⟨3, ![a, b, c]⟩ y h (ix3 p q k) = y (ix2 r k) :=
  shapeCast_apply y h _ _ (by
    rw [Shape.rowMajor_val_two, Shape.rowMajor_val_three]
    show r.val * c + k.val = (p.val * b + q.val) * c + k.val
    rw [hr])

/-- An `[a, b]` array of one value per pair, cast to the line `[1, 1, n]`, reads at position `p · b + q` the value of
    the pair `(p, q)`. -/
theorem shapeCast_ab_11n_apply {a b n : ℕ} (z : (⟨2, ![a, b]⟩ : Shape).Idx → α)
    (h : (⟨2, ![a, b]⟩ : Shape).ShapeCasts ⟨3, ![1, 1, n]⟩) (u v : Fin 1) (p : Fin a) (q : Fin b) (j : Fin n)
    (hj : j.val = p.val * b + q.val) :
    shapeCast ⟨3, ![1, 1, n]⟩ z h (ix3 u v j) = z (ix2 p q) :=
  shapeCast_apply z h _ _ (by
    have hu : u.val = 0 := by omega
    have hv : v.val = 0 := by omega
    rw [Shape.rowMajor_val_two, Shape.rowMajor_val_three]
    show p.val * b + q.val = (u.val * 1 + v.val) * n + j.val
    rw [hu, hv, hj]
    simp)

end Idealize.ShloMosaic.RowPairs
-- ==== Proof.LibUnitAxisLayout.lean ====
/-
  Layout operations of rank-3 arrays with unit axes, read at an index given by coordinates.

  A value that depends on fewer coordinates than the array it is combined with is carried as an
  array with unit axes and broadcast: a per-sample scalar as [a, 1, 1], a per-lane row as [1, 1, c],
  a per-sample row of lanes as [a, 1, c], each broadcast to [a, b, c]. Reading the broadcast at
  (p, q, r) reads the operand at the coordinates it has, and 0 on its unit axes. The casts that
  insert the middle unit axis, and the slice that picks one entry (k1, k2) of every sample's small
  matrix as an [a, 1, 1] column, are read the same way. Every lemma is the general statement of the
  operation at an index with the two indices written out coordinate by coordinate.
-/
import Idealize.ShloMosaic.Lib.Pipeline.Value
import Idealize.ShloMosaic.Lib.ValueIdx

namespace Idealize.ShloMosaic.UnitAxisLayout

open Idealize.ShloMosaic Idealize.ShloMosaic.ValueIdx

variable {α : Type}

/-! ## Broadcasts to [a, b, c] -/

/-- An [a, 1, 1] column broadcast to [a, b, c] reads, at (p, q, r), the column's entry p. -/
theorem broadcastTo_a11_abc_apply {a b c : ℕ} (v : (⟨3, ![a, 1, 1]⟩ : Shape).Idx → α)
    (h : (⟨3, ![a, 1, 1]⟩ : Shape).Broadcasts ⟨3, ![a, b, c]⟩) (p : Fin a) (q : Fin b) (r : Fin c) :
    broadcastTo ⟨3, ![a, b, c]⟩ v h (ix3 p q r) = v (ix3 p (0 : Fin 1) (0 : Fin 1)) := by
  refine broadcastTo_apply v h (ix3 p q r) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

/-- A [1, 1, c] row broadcast to [a, b, c] reads, at (p, q, r), the row's entry r. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (r : Fin c) :
    broadcastTo ⟨3, ![a, b, c]⟩ v h (ix3 p q r) = v (ix3 (0 : Fin 1) (0 : Fin 1) r) := by
  refine broadcastTo_apply v h (ix3 p q r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

/-- An [a, 1, c] slab broadcast to [a, b, c] reads, at (p, q, r), the slab's entry (p, r). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-! ## The cast that inserts a middle unit axis -/

/-- An [a, c] matrix cast to [a, 1, c] reads, at (p, u, r), the matrix at (p, r). -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (r : Fin c) :
    shapeCast ⟨3, ![a, 1, c]⟩ x h (ix3 p u r) = x (ix2 p r) :=
  shapeCast_apply x h _ _ (by
    have hu : u.val = 0 := by omega
    rw [Shape.rowMajor_val_three, Shape.rowMajor_val_two]
    show p.val * c + r.val = (p.val * 1 + u.val) * c + r.val
    rw [hu, Nat.mul_one, Nat.add_zero])

/-! ## One entry of every sample's small matrix, as a column -/

/-- The unit-size slice of an [a, n1, n2] array at offsets (0, o1, o2) is the [a, 1, 1] column of the
    entries (k1, k2) = (o1, o2): at (p, 0, 0) it reads the array at (p, k1, k2). -/
theorem slice_entry_apply {a n1 n2 : ℕ} (o1 o2 : ℕ) (x : (⟨3, ![a, n1, n2]⟩ : Shape).Idx → α)
    (h : (⟨3, ![a, n1, n2]⟩ : Shape).Slices ![0, o1, o2] ⟨3, ![a, 1, 1]⟩) (p : Fin a) (u v : Fin 1)
    (k1 : Fin n1) (k2 : Fin n2) (hk1 : k1.val = o1) (hk2 : k2.val = o2) :
    extractStridedSlice ⟨3, ![a, 1, 1]⟩ ![0, o1, o2] x h (ix3 p u v) = x (ix3 p k1 k2) := by
  refine extractStridedSlice_apply ![0, o1, o2] x h (ix3 p u v) (ix3 p k1 k2) fun ax => ?_
  have hu : u.val = 0 := by omega
  have hv : v.val = 0 := by omega
  match ax with
  | ⟨0, _⟩ => show p.val = 0 + p.val; omega
  | ⟨1, _⟩ => show k1.val = o1 + u.val; omega
  | ⟨2, _⟩ => show k2.val = o2 + v.val; omega

/-- The same entry carried through the flattening [a, 1, 1] → [a] → [a, 1, 1] and broadcast to
    [a, b, c]: at (p, q, r) it is the array's entry (p, k1, k2). -/
theorem broadcast_entry_apply {a n1 n2 b c : ℕ} (o1 o2 : ℕ) (x : (⟨3, ![a, n1, n2]⟩ : Shape).Idx → α)
    (hs : (⟨3, ![a, n1, n2]⟩ : Shape).Slices ![0, o1, o2] ⟨3, ![a, 1, 1]⟩)
    (h1 : (⟨3, ![a, 1, 1]⟩ : Shape).ShapeCasts ⟨1, ![a]⟩) (h2 : (⟨1, ![a]⟩ : Shape).ShapeCasts ⟨3, ![a, 1, 1]⟩)
    (hb : (⟨3, ![a, 1, 1]⟩ : Shape).Broadcasts ⟨3, ![a, b, c]⟩) (p : Fin a) (q : Fin b) (r : Fin c)
    (k1 : Fin n1) (k2 : Fin n2) (hk1 : k1.val = o1) (hk2 : k2.val = o2) :
    broadcastTo ⟨3, ![a, b, c]⟩
        (shapeCast ⟨3, ![a, 1, 1]⟩ (shapeCast ⟨1, ![a]⟩ (extractStridedSlice ⟨3, ![a, 1, 1]⟩ ![0, o1, o2] x hs) h1) h2) hb
        (ix3 p q r)
      = x (ix3 p k1 k2) := by
  rw [broadcastTo_a11_abc_apply, shapeCast_shapeCast]
  exact slice_entry_apply o1 o2 x hs p 0 0 k1 k2 hk1 hk2

end Idealize.ShloMosaic.UnitAxisLayout
-- ==== Proof.LibInnerProducts.lean ====
/-
  A matrix product and a sum along the last axis, read at an index on the extended reals.

  At the ideal values a matrix product of an `[M, K]` matrix with a `[K, N]` matrix, accumulated into zero, holds at
  `(p, f)` the inner product of row `p` of the left factor with column `f` of the right factor: the sum over `d` of
  `a (p, d) · w (d, f)`, with no rounding and no order of summation left in it. A sum of an `[a, b, c]` array along its
  last axis holds at `(p, q)` the sum over `f` of the array at `(p, q, f)`. Both are the library's general statements
  with the contraction index and the inserted coordinate written as a plain `Fin`.
-/
import Idealize.ShloMosaic.PureOps.Ideal.Laws
import Idealize.ShloMosaic.Lib.ValueIdx

noncomputable section

namespace Idealize.ShloMosaic.InnerProducts

open Idealize.ShloMosaic Idealize.ShloMosaic.ValueIdx
open scoped BigOperators

/-- An `[M, K]` by `[K, N]` matrix product into the zero accumulator is, at `(p, f)`, the inner product of row `p` of
    the left factor with column `f` of the right factor. `D` is any record of the plain dimension numbers (contract the
    left factor's columns with the right factor's rows, no batch axis). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    matmul D prec a w (constant (F := Ideal) ⟨2, ![M, N]⟩ .f32 0x00000000#32) (ix2 p f)
      = ∑ d : Fin K, a (ix2 p d) * w (ix2 d f) := by
  subst hD
  refine (Ideal.matmul_constant_zero_apply (DotDims.plain M K N) prec a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- The host's `dot_general` with the same plain dimension numbers is the same inner product (it has no accumulator). -/
theorem dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    Host.dotGeneral D prec a w (ix2 p f) = ∑ d : Fin K, a (ix2 p d) * w (ix2 d f) := by
  subst hD
  refine (Ideal.dotGeneral_apply (DotDims.plain M K N) prec .single a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- A float sum of an `[a, b, c]` array along its last axis is, at `(p, q)`, the sum over `f` of the array at
    `(p, q, f)`. -/
theorem lane_sum_apply {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ x acc h hφ hacc (ix2 p q) = ∑ f : Fin c, x (ix3 p q f) := by
  refine (Ideal.multiReduction_add_single x acc h hφ hacc (ix2 p q)).trans ?_
  show ∑ f : Fin c, x (h.lift (ix2 p q) f) = ∑ f : Fin c, x (ix3 p q f)
  refine Finset.sum_congr rfl fun f _ => congrArg x (funext fun ax => Fin.ext ?_)
  match ax with
  | ⟨0, _⟩ => rfl
  | ⟨1, _⟩ => rfl
  | ⟨2, _⟩ => rfl

end Idealize.ShloMosaic.InnerProducts

end
-- ==== Proof.BlockScores.lean ====
/-
  What the kernel body stores for one grid point, read at an index.

  A grid point holds 128 consecutive nodes of one sample. The body's one store writes a line of 2048 numbers, position
  `16 · p + q` being the raw score of the pair (node `p` of the block, location `q`): the rectified pre-activations against
  the row of second-layer weights. A pre-activation is built here as

      (location's embedding · the lower weight block) + ((node's embedding · the upper weight block) + context),

  where the two weight blocks are rows 0–511 and 512–1023 of the stacked matrix the body loads, and the context row (one
  number per feature, the same for every node of the sample) comes in as an operand. The 2048 pairs are flattened to the
  rows of one matrix for the location product and unflattened after it; the node's sum is computed once per node and
  repeated along the 16 locations. Every step is read at an index: the flattening casts keep the pair (16 · p + q ↔ (p, q)),
  a repeat reads its operand at the coordinates it has, a changed float format is the identity on extended reals.
-/
import proofs.«141779_j90701119357586_2_alg».proof.Proof.Gen.KernelIdeal.Skeleton
import proofs.«141779_j90701119357586_2_alg».proof.Proof.ScoreSpec
import proofs.«141779_j90701119357586_2_alg».proof.Proof.LibRowPairs
import proofs.«141779_j90701119357586_2_alg».proof.Proof.LibUnitAxisLayout
import proofs.«141779_j90701119357586_2_alg».proof.Proof.LibInnerProducts
import Idealize.ShloMosaic.Lib.ValueLayout
import Idealize.ShloMosaic.Lib.Pipeline.Value

noncomputable section

namespace Cert.KernelIdeal.Block

open Cert.KernelIdeal Cert.KernelIdeal.Gen Idealize.ShloMosaic Idealize.ShloMosaic.ValueIdx
open scoped BigOperators

/-- The location product, unflattened: at `(p, q, f)` the inner product of the embedding of pair `(p, q)` with column `f`
    of the weight block. -/
theorem loc_product_apply (y : FVec Ideal S1x128x16x512 .f32) (wloc : FVec Ideal S512x512 .bf16)
    (p : Fin 128) (q : Fin 16) (f : Fin 512) :
    shapeCast S128x16x512 (matmul dot_S2048x512_S512x512_S2048x512_1_0_0_1_n_n none
        (shapeCast S2048x512 (truncf .bf16 (shapeCast S128x16x512 y shapeCasts_S1x128x16x512_S128x16x512) bitsLt_bf16_f32)
          shapeCasts_S128x16x512_S2048x512)
        (shapeCast S512x512 wloc shapeCasts_S512x512_S512x512) (constant (F := Ideal) S2048x512 .f32 0x00000000#32))
      shapeCasts_S2048x512_S128x16x512 (ix3 p q f)
      = ∑ d : Fin 512, y (ix4 (0 : Fin 1) p q d) * wloc (ix2 d f) := by
  have hr : p.val * 16 + q.val < 2048 := by have := p.isLt; have := q.isLt; omega
  refine (RowPairs.shapeCast_nc_abc_apply _ _ p q f ⟨p.val * 16 + q.val, hr⟩ rfl).trans ?_
  refine (InnerProducts.matmul_zero_apply _ rfl none _ _ ⟨p.val * 16 + q.val, hr⟩ f).trans ?_
  refine Finset.sum_congr rfl fun d _ => congrArg₂ (· * ·) ?_ ?_
  · refine (RowPairs.shapeCast_abc_nc_apply _ _ p q d ⟨p.val * 16 + q.val, hr⟩ rfl).trans ?_
    exact shapeCast_1abc_abc_apply y _ p q d
  · exact congrFun (shapeCast_self wloc _) _

/-- The node product plus the context row: at `(p, f)` the inner product of node `p`'s embedding with column `f` of the
    weight block, plus the context's entry `f`. -/
theorem base_apply (x : FVec Ideal S1x128x512 .f32) (wn : FVec Ideal S512x512 .bf16) (ctx : FVec Ideal S1x1x512 .f32)
    (p : Fin 128) (f : Fin 512) :
    addf (matmul dot_S128x512_S512x512_S128x512_1_0_0_1_n_n none
          (truncf .bf16 (shapeCast S128x512 x shapeCasts_S1x128x512_S128x512) bitsLt_bf16_f32)
          (shapeCast S512x512 wn shapeCasts_S512x512_S512x512) (constant (F := Ideal) S128x512 .f32 0x00000000#32))
        (broadcastTo S128x512 (shapeCast S1x512 ctx shapeCasts_S1x1x512_S1x512) broadcasts_S1x512_S128x512) (ix2 p f)
      = (∑ d : Fin 512, x (ix3 (0 : Fin 1) p d) * wn (ix2 d f)) + ctx (ix3 (0 : Fin 1) (0 : Fin 1) f) := by
  rw [addf_apply]
  refine congrArg₂ (· + ·) ?_ ?_
  · refine (InnerProducts.matmul_zero_apply _ rfl none _ _ p f).trans ?_
    refine Finset.sum_congr rfl fun d _ => congrArg₂ (· * ·) ?_ ?_
    · exact shapeCast_1ab_ab_apply x _ p d
    · exact congrFun (shapeCast_self wn _) _
  · refine (broadcastTo_1b_ab_apply _ _ p f).trans ?_
    exact shapeCast_1ab_ab_apply ctx _ 0 f

/-- THE BLOCK'S LINE at position `j = 16 · p + q`: the raw score of the pair `(p, q)` from the body's six loaded values
    — the two weight blocks `wn`, `wloc`, the nodes' embeddings `x`, the context row `ctx`, the locations' embeddings `y`,
    the second-layer row `w2`. -/
theorem pay_apply (wn wloc : FVec Ideal S512x512 .bf16) (x : FVec Ideal S1x128x512 .f32) (ctx : FVec Ideal S1x1x512 .f32)
    (y : FVec Ideal S1x128x16x512 .f32) (w2 : FVec Ideal S1x512 .f32) (p : Fin 128) (q : Fin 16) (j : Fin 2048)
    (hj : j.val = p.val * 16 + q.val) :
    k0_pay1 (F := Ideal) wn wloc x ctx y w2 (ix3 (0 : Fin 1) (0 : Fin 1) j)
      = ∑ f : Fin 512,
          max ((∑ d : Fin 512, y (ix4 (0 : Fin 1) p q d) * wloc (ix2 d f))
              + ((∑ d : Fin 512, x (ix3 (0 : Fin 1) p d) * wn (ix2 d f)) + ctx (ix3 (0 : Fin 1) (0 : Fin 1) f)))
            Cert.Scorer.zero
          * w2 (ix2 (0 : Fin 1) f) := by
  unfold k0_pay1
  dsimp only
  refine (RowPairs.shapeCast_ab_11n_apply _ _ 0 0 p q j hj).trans ?_
  refine (InnerProducts.lane_sum_apply _ _ _ _ _ p q).trans ?_
  refine Finset.sum_congr rfl fun f _ => ?_
  rw [mulf_apply, maximumf_apply, addf_apply]
  refine congrArg₂ (· * ·) (congrArg₂ max (congrArg₂ (· + ·) ?_ ?_) rfl) ?_
  · exact loc_product_apply y wloc p q f
  · refine (UnitAxisLayout.broadcastTo_a1c_abc_apply _ _ p q f).trans ?_
    refine (UnitAxisLayout.shapeCast_ac_a1c_apply _ _ p 0 f).trans ?_
    exact base_apply x wn ctx p f
  · refine (UnitAxisLayout.broadcastTo_11c_abc_apply _ _ p q f).trans ?_
    refine (shapeCast_ab_1ab_apply _ _ 0 0 f).trans ?_
    exact congrFun (shapeCast_self w2 _) _

end Cert.KernelIdeal.Block

end
-- ==== Proof.BlockLine.lean ====
/-
  One grid point's line is a stretch of the scorer's function.

  Suppose the body's loaded values are what the launch hands it for sample `b` and the `ni`-th run of 128 nodes: the
  nodes' and locations' embeddings of that run, the sample's context row (its graph and global-location terms plus the
  first bias), the upper and lower 512 rows of the stacked weights (rows 0–511 and 1536–2047 of the first weight matrix)
  and the second layer's weights as a row. Then position `j` of the stored line is the raw score of the sample's pair
  number `2048 · ni + j`: the body's pre-activation is the specification's with the five terms grouped as
  location + (node + ((graph + global) + bias)).
-/
import proofs.«141779_j90701119357586_2_alg».proof.Proof.BlockScores

noncomputable section

namespace Cert.KernelIdeal.Block

open Cert.KernelIdeal Cert.KernelIdeal.Gen Cert.Scorer Idealize.ShloMosaic Idealize.ShloMosaic.ValueIdx
open scoped BigOperators

/-- THE LINE OF ONE GRID POINT. If the loaded values are sample `b`'s: the embeddings of the nodes `128 · ni + p` (`hx`) and of
    their locations (`hy`), the context row (`hctx`), rows 0–511 and 1536–2047 of the first weight matrix (`hwn`, `hwloc`) and
    the second layer's weights (`hw2`), then the stored line holds at position `j` the raw score of the sample's pair
    number `2048 · ni + j`. -/
theorem line_apply
    (node : FVec Ideal ⟨3, ![8, 512, 512]⟩ .f32) (loc : FVec Ideal ⟨4, ![8, 512, 16, 512]⟩ .f32)
    (graph locg : FVec Ideal ⟨2, ![8, 512]⟩ .f32) (W1 : FVec Ideal ⟨2, ![2048, 512]⟩ .f32)
    (b1 : FVec Ideal ⟨1, ![512]⟩ .f32) (W2 : FVec Ideal ⟨2, ![512, 1]⟩ .f32)
    (wn wloc : FVec Ideal S512x512 .bf16) (x : FVec Ideal S1x128x512 .f32) (ctx : FVec Ideal S1x1x512 .f32)
    (y : FVec Ideal S1x128x16x512 .f32) (w2 : FVec Ideal S1x512 .f32) (b : Fin 8) (ni : Fin 4)
    (hx : ∀ (p : Fin 128) (d : Fin 512), x (ix3 (0 : Fin 1) p d) = node (ix3 b (nodeOf ni p) d))
    (hy : ∀ (p : Fin 128) (q : Fin 16) (d : Fin 512), y (ix4 (0 : Fin 1) p q d) = loc (ix4 b (nodeOf ni p) q d))
    (hctx : ∀ f : Fin 512, ctx (ix3 (0 : Fin 1) (0 : Fin 1) f)
      = (graphTerm graph W1 b f + locgTerm locg W1 b f) + b1 (ix1 f))
    (hwn : ∀ d f : Fin 512, wn (ix2 d f) = W1 (ix2 (wrow 0 (by omega) d) f))
    (hwloc : ∀ d f : Fin 512, wloc (ix2 d f) = W1 (ix2 (wrow 1536 (by omega) d) f))
    (hw2 : ∀ f : Fin 512, w2 (ix2 (0 : Fin 1) f) = W2 (ix2 f (0 : Fin 1)))
    (i : S1x1x2048.Idx) (u v : Fin 1) (j : Fin 2048) (hi : i = ix3 u v j) (h : ni.val * 2048 + j.val < 8192) :
    k0_pay1 (F := Ideal) wn wloc x ctx y w2 i
      = rawScoreAt node loc graph locg W1 b1 W2 b ⟨ni.val * 2048 + j.val, h⟩ := by
  subst hi
  obtain rfl : u = 0 := Subsingleton.elim _ _
  obtain rfl : v = 0 := Subsingleton.elim _ _
  have hj := j.isLt
  have hpq : j.val = (⟨j.val / 16, by omega⟩ : Fin 128).val * 16 + (⟨j.val % 16, by omega⟩ : Fin 16).val := by
    show j.val = j.val / 16 * 16 + j.val % 16
    omega
  rw [rawScoreAt_block node loc graph locg W1 b1 W2 b ni ⟨j.val / 16, by omega⟩ ⟨j.val % 16, by omega⟩ j hpq h,
    rawScore_regrouped, pay_apply wn wloc x ctx y w2 ⟨j.val / 16, by omega⟩ ⟨j.val % 16, by omega⟩ j hpq]
  refine Finset.sum_congr rfl fun f _ => ?_
  rw [hw2, hctx]
  unfold locTerm nodeTerm
  simp only [hx, hy, hwn, hwloc]

end Cert.KernelIdeal.Block

end
-- ==== Proof.LibStackedRows.lean ====
/-
  Two matrices stacked one above the other, read at an index.

  The concatenation of an `[a, n]` matrix `u` and a `[b, n]` matrix `v` along their rows is the `[c, n]` matrix whose rows
  `0 … a − 1` are `u`'s and whose rows `a … a + b − 1` are `v`'s, in order; the column passes through. (`c = a + b` is part
  of the hypothesis `h`; the statements never need it spelt out.)
-/
import Idealize.ShloMosaic.Lib.ValueIdx
import Idealize.ShloMosaic.Lib.Pipeline.Value

namespace Idealize.ShloMosaic.StackedRows

open Idealize.ShloMosaic Idealize.ShloMosaic.ValueIdx

variable {α : Type}

/-- Rows `[0, a)` of `u` stacked on `v` are `u`'s. -/
theorem rows_top {a b c n : ℕ} (u : (⟨2, ![a, n]⟩ : Shape).Idx → α) (v : (⟨2, ![b, n]⟩ : Shape).Idx → α)
    (h : Shape.Concatenates [(⟨2, ![a, n]⟩ : Shape), ⟨2, ![b, n]⟩] ⟨2, ![c, n]⟩ 0)
    (r : Fin c) (k : Fin n) (p : Fin a) (hp : p.val = r.val) :
    concatenate (⟨2, ![c, n]⟩ : Shape) 0 [⟨⟨2, ![a, n]⟩, u⟩, ⟨⟨2, ![b, n]⟩, v⟩] h (ix2 r k) = u (ix2 p k) :=
  concatenate_pair_apply_left 0 u v h (ix2 r k) rfl (ix2 p k) (fun d => by
    match d with
    | ⟨0, _⟩ => exact hp
    | ⟨1, _⟩ => rfl)

/-- Rows `[a, a + b)` of `u` stacked on `v` are `v`'s, shifted by `a`. -/
theorem rows_bottom {a b c n : ℕ} (u : (⟨2, ![a, n]⟩ : Shape).Idx → α) (v : (⟨2, ![b, n]⟩ : Shape).Idx → α)
    (h : Shape.Concatenates [(⟨2, ![a, n]⟩ : Shape), ⟨2, ![b, n]⟩] ⟨2, ![c, n]⟩ 0)
    (r : Fin c) (k : Fin n) (p : Fin b) (hp : p.val + a = r.val) :
    concatenate (⟨2, ![c, n]⟩ : Shape) 0 [⟨⟨2, ![a, n]⟩, u⟩, ⟨⟨2, ![b, n]⟩, v⟩] h (ix2 r k) = v (ix2 p k) :=
  concatenate_pair_apply_right 0 u v h (ix2 r k) rfl rfl (ix2 p k) (fun d hd => by
    match d with
    | ⟨0, _⟩ => exact absurd rfl hd
    | ⟨1, _⟩ => rfl) hp

end Idealize.ShloMosaic.StackedRows
-- ==== Proof.RegionEntry.lean ====
/-
  What the region finds in the three arrays the host computed before it.

  Before the launch the host prepares three operands from the arguments. The context rows: for each sample, the graph
  embedding against rows 512–1023 of the first weight matrix plus the global location embedding against rows 1024–1535,
  plus the first bias — one row of 512 numbers per sample, shaped `[8, 1, 512]`. The stacked weights: rows 0–511 of the
  first weight matrix on top of its rows 1536–2047, a `[1024, 512]` matrix (its narrower float format is the identity on
  extended reals). The second layer's weights, a `[512, 1]` column, laid out as a `[1, 512]` row. Each is first named as
  the host operations' term of the arguments and then read at an index.
-/
import proofs.«141779_j90701119357586_2_alg».proof.Proof.Gen.KernelIdeal.Frame
import proofs.«141779_j90701119357586_2_alg».proof.Proof.ScoreSpec
import proofs.«141779_j90701119357586_2_alg».proof.Proof.LibStackedRows
import proofs.«141779_j90701119357586_2_alg».proof.Proof.LibUnitAxisLayout
import proofs.«141779_j90701119357586_2_alg».proof.Proof.LibInnerProducts
import Idealize.ShloMosaic.Lib.ValueLayout
import Idealize.ShloMosaic.Lib.StableHlo.Run

noncomputable section

namespace Cert.KernelIdeal.Entry

open Cert.KernelIdeal Cert.KernelIdeal.Gen Cert.Scorer Idealize.ShloMosaic Idealize.ShloMosaic.TcCoe
open Idealize.ShloMosaic.ValueIdx Idealize.SL.Sem Idealize.ShloMosaic.StableHlo
open scoped BigOperators

/-! ## The three host terms, read at an index -/

/-- The context row of sample `b` at feature `f`: the graph term plus the global location term, plus the bias. -/
theorem ctx_term_apply (g l : FVec Ideal S8x512 .f32) (W1 : FVec Ideal S2048x512 .f32) (b1 : FVec Ideal S512 .f32)
    (b : Fin 8) (u : Fin 1) (f : Fin 512) :
    shapeCast S8x1x512
        (addf (addf (Host.dotGeneral (F := Ideal) dot_S8x512_S512x512_S8x512_1_0_0_1_n_n none g
                (extractStridedSlice S512x512 ![512, 0] W1 slices_S2048x512_S512x512_512_0))
              (Host.dotGeneral (F := Ideal) dot_S8x512_S512x512_S8x512_1_0_0_1_n_n none l
                (extractStridedSlice S512x512 ![1024, 0] W1 slices_S2048x512_S512x512_1024_0)))
          (broadcastInDim S8x512 ![0, 1] bcast_S1x512_S8x512_0_1 (broadcastInDim S1x512 ![1] bcast_S512_S1x512_1 b1)))
        shapeCasts_S8x512_S8x1x512 (ix3 b u f)
      = (graphTerm g W1 b f + locgTerm l W1 b f) + b1 (ix1 f) := by
  refine (UnitAxisLayout.shapeCast_ac_a1c_apply _ _ b u f).trans ?_
  rw [addf_apply, addf_apply]
  refine congrArg₂ (· + ·) (congrArg₂ (· + ·) ?_ ?_) ?_
  · refine (InnerProducts.dotGeneral_apply _ rfl none _ _ b f).trans ?_
    unfold graphTerm
    refine Finset.sum_congr rfl fun d _ => congrArg₂ (· * ·) rfl ?_
    exact slice2_axis0_apply 512 W1 _ d f (wrow 512 (by omega) d) rfl
  · refine (InnerProducts.dotGeneral_apply _ rfl none _ _ b f).trans ?_
    unfold locgTerm
    refine Finset.sum_congr rfl fun d _ => congrArg₂ (· * ·) rfl ?_
    exact slice2_axis0_apply 1024 W1 _ d f (wrow 1024 (by omega) d) rfl
  · refine (broadcastInDim_apply _ _ _ (ix2 b f) (ix2 (0 : Fin 1) f) (fun a => ?_)).trans ?_
    · match a with
      | ⟨0, _⟩ => show (0 : ℕ) = if (1 : ℕ) = 1 then 0 else b.val; rw [if_pos rfl]
      | ⟨1, _⟩ => show f.val = if (512 : ℕ) = 1 then 0 else f.val; rw [if_neg (by decide)]
    · exact broadcastInDim_apply _ _ _ (ix2 (0 : Fin 1) f) (ix1 f) (fun a => by
        match a with
        | ⟨0, _⟩ => show f.val = if (512 : ℕ) = 1 then 0 else f.val; rw [if_neg (by decide)])

/-- Row `d` of the stacked weights, `d` below 512, is row `d` of the first weight matrix. -/
theorem stacked_top_apply (W1 : FVec Ideal S2048x512 .f32) (r : Fin 1024) (d f : Fin 512) (hr : r.val = d.val) :
    concatenate S1024x512 0
          [⟨S512x512, extractStridedSlice S512x512 ![0, 0] W1 slices_S2048x512_S512x512_0_0⟩,
           ⟨S512x512, extractStridedSlice S512x512 ![1536, 0] W1 slices_S2048x512_S512x512_1536_0⟩]
          concatenates_S512x512_S512x512_S1024x512_d0 (ix2 r f)
      = W1 (ix2 (wrow 0 (by omega) d) f) := by
  refine (StackedRows.rows_top (extractStridedSlice S512x512 ![0, 0] W1 slices_S2048x512_S512x512_0_0)
    (extractStridedSlice S512x512 ![1536, 0] W1 slices_S2048x512_S512x512_1536_0)
    concatenates_S512x512_S512x512_S1024x512_d0 r f d hr.symm).trans ?_
  exact slice2_axis0_apply 0 W1 _ d f (wrow 0 (by omega) d) rfl

/-- Row `512 + d` of the stacked weights is row `1536 + d` of the first weight matrix. -/
theorem stacked_bottom_apply (W1 : FVec Ideal S2048x512 .f32) (r : Fin 1024) (d f : Fin 512) (hr : r.val = 512 + d.val) :
    concatenate S1024x512 0
          [⟨S512x512, extractStridedSlice S512x512 ![0, 0] W1 slices_S2048x512_S512x512_0_0⟩,
           ⟨S512x512, extractStridedSlice S512x512 ![1536, 0] W1 slices_S2048x512_S512x512_1536_0⟩]
          concatenates_S512x512_S512x512_S1024x512_d0 (ix2 r f)
      = W1 (ix2 (wrow 1536 (by omega) d) f) := by
  refine (StackedRows.rows_bottom (extractStridedSlice S512x512 ![0, 0] W1 slices_S2048x512_S512x512_0_0)
    (extractStridedSlice S512x512 ![1536, 0] W1 slices_S2048x512_S512x512_1536_0)
    concatenates_S512x512_S512x512_S1024x512_d0 r f d (by show d.val + 512 = r.val; omega)).trans ?_
  exact slice2_axis0_apply 1536 W1 _ d f (wrow 1536 (by omega) d) rfl

/-- The second layer's column laid out as a row: entry `f` of the row is entry `f` of the column. -/
theorem w2row_apply (W2 : FVec Ideal S512x1 .f32) (u : Fin 1) (f : Fin 512) :
    shapeCast S1x512 W2 shapeCasts_S512x1_S1x512 (ix2 u f) = W2 (ix2 f (0 : Fin 1)) :=
  shapeCast_apply W2 _ _ _ (by
    have hu : u.val = 0 := by omega
    rw [Shape.rowMajor_val_two, Shape.rowMajor_val_two]
    show f.val * 1 + 0 = u.val * 512 + f.val
    omega)

/-! ## The arrays as the region finds them -/

variable (m : (ℓ : Loc nD τ sig) → Buf (Elt Ideal) ℓ)

/-- The eight argument arrays on core `c`, as launched. -/
abbrev nodeArg (c : Dev nD) : FVec Ideal S8x512x512 .f32 := m ((c : Thread nD τ).loc main_arg0)
abbrev locArg (c : Dev nD) : FVec Ideal S8x512x16x512 .f32 := m ((c : Thread nD τ).loc main_arg1)
abbrev graphArg (c : Dev nD) : FVec Ideal S8x512 .f32 := m ((c : Thread nD τ).loc main_arg2)
abbrev locgArg (c : Dev nD) : FVec Ideal S8x512 .f32 := m ((c : Thread nD τ).loc main_arg3)
abbrev w1Arg (c : Dev nD) : FVec Ideal S2048x512 .f32 := m ((c : Thread nD τ).loc main_arg4)
abbrev b1Arg (c : Dev nD) : FVec Ideal S512 .f32 := m ((c : Thread nD τ).loc main_arg5)
abbrev w2Arg (c : Dev nD) : FVec Ideal S512x1 .f32 := m ((c : Thread nD τ).loc main_arg6)
abbrev b2Arg (c : Dev nD) : FVec Ideal S1 .f32 := m ((c : Thread nD τ).loc main_arg7)

/-- The context rows' array at the region's entry is the host's term of the arguments. -/
theorem V_ctx (c : Dev nD) :
    (V m c main_v10 : FVec Ideal S8x1x512 .f32) = shapeCast S8x1x512
        (addf (addf (Host.dotGeneral (F := Ideal) dot_S8x512_S512x512_S8x512_1_0_0_1_n_n none (graphArg m c)
                (extractStridedSlice S512x512 ![512, 0] (w1Arg m c) slices_S2048x512_S512x512_512_0))
              (Host.dotGeneral (F := Ideal) dot_S8x512_S512x512_S8x512_1_0_0_1_n_n none (locgArg m c)
                (extractStridedSlice S512x512 ![1024, 0] (w1Arg m c) slices_S2048x512_S512x512_1024_0)))
          (broadcastInDim S8x512 ![0, 1] bcast_S1x512_S8x512_0_1
            (broadcastInDim S1x512 ![1] bcast_S512_S1x512_1 (b1Arg m c))))
        shapeCasts_S8x512_S8x1x512 := by
  show StableHlo.after hostOps0 (fun b => m (c, b)) (Proc.devRef .tc main_v10) = _
  after_results <;> rfl

/-- The stacked weights' array at the region's entry. -/
theorem V_stacked (c : Dev nD) :
    (V m c main_v12 : FVec Ideal S1024x512 .bf16) = truncf (F := Ideal) .bf16 (concatenate S1024x512 0
          [⟨S512x512, extractStridedSlice S512x512 ![0, 0] (w1Arg m c) slices_S2048x512_S512x512_0_0⟩,
           ⟨S512x512, extractStridedSlice S512x512 ![1536, 0] (w1Arg m c) slices_S2048x512_S512x512_1536_0⟩]
          concatenates_S512x512_S512x512_S1024x512_d0) bitsLt_bf16_f32 := by
  show StableHlo.after hostOps0 (fun b => m (c, b)) (Proc.devRef .tc main_v12) = _
  after_results <;> rfl

/-- The second layer's row at the region's entry. -/
theorem V_w2row (c : Dev nD) :
    (V m c main_v13 : FVec Ideal S1x512 .f32) = shapeCast S1x512 (w2Arg m c) shapeCasts_S512x1_S1x512 := by
  show StableHlo.after hostOps0 (fun b => m (c, b)) (Proc.devRef .tc main_v13) = _
  after_results <;> rfl

/-- The context rows at `(b, 0, f)`. -/
theorem ctx_entry (c : Dev nD) (b : Fin 8) (u : Fin 1) (f : Fin 512) :
    (V m c main_v10 : FVec Ideal S8x1x512 .f32) (ix3 b u f)
      = (graphTerm (graphArg m c) (w1Arg m c) b f + locgTerm (locgArg m c) (w1Arg m c) b f) + b1Arg m c (ix1 f) := by
  rw [V_ctx]
  exact ctx_term_apply _ _ _ _ b u f

/-- The stacked weights at row `d` below 512. -/
theorem stacked_top_entry (c : Dev nD) (r : Fin 1024) (d f : Fin 512) (hr : r.val = d.val) :
    (V m c main_v12 : FVec Ideal S1024x512 .bf16) (ix2 r f) = w1Arg m c (ix2 (wrow 0 (by omega) d) f) := by
  rw [V_stacked]
  exact stacked_top_apply _ r d f hr

/-- The stacked weights at row `512 + d`. -/
theorem stacked_bottom_entry (c : Dev nD) (r : Fin 1024) (d f : Fin 512) (hr : r.val = 512 + d.val) :
    (V m c main_v12 : FVec Ideal S1024x512 .bf16) (ix2 r f) = w1Arg m c (ix2 (wrow 1536 (by omega) d) f) := by
  rw [V_stacked]
  exact stacked_bottom_apply _ r d f hr

/-- The second layer's row at `(0, f)`. -/
theorem w2row_entry (c : Dev nD) (u : Fin 1) (f : Fin 512) :
    (V m c main_v13 : FVec Ideal S1x512 .f32) (ix2 u f) = w2Arg m c (ix2 f (0 : Fin 1)) := by
  rw [V_w2row]
  exact w2row_apply _ u f

end Cert.KernelIdeal.Entry

end
-- ==== Proof.KernelArray.lean ====
/-
  The array the kernel leaves.

  The launch runs the body at 32 grid points, one per pair (sample `b`, run `ni` of 128 consecutive nodes). The point
  reads the nodes' and the locations' embeddings of that run (rows `128 · ni …` of sample `b`), the sample's context row
  and the two whole weight operands, and writes the line it computes to positions `2048 · ni … 2048 · ni + 2047` of
  sample `b`'s row of the `[8, 1, 8192]` result array. How the printed index maps relate — the inputs' block indices to
  the output's — is decided once over the 32 points. A block's element sits in its array, on each axis, at the block
  index times the block size plus its own coordinate; so each loaded value is the argument (or the host's operand) at
  the coordinates the specification names, and the line is a stretch of the scorer's raw scores. The 32 lines tile the
  array, hence after the launch position `(b, 0, j)` holds the raw score of sample `b`'s pair number `j`.
-/
import proofs.«141779_j90701119357586_2_alg».proof.Proof.Gen.KernelIdeal.Frame
import proofs.«141779_j90701119357586_2_alg».proof.Proof.BlockLine
import proofs.«141779_j90701119357586_2_alg».proof.Proof.RegionEntry
import Idealize.ShloMosaic.Lib.Pipeline.Value

noncomputable section

open Idealize.ShloMosaic Idealize.ShloMosaic.TcCoe Idealize.SL.Sem
open Idealize.ShloMosaic.Pipeline (Dat)

namespace Cert.KernelIdeal.Lines

open Cert.KernelIdeal Cert.KernelIdeal.Gen Cert.KernelIdeal.Entry Cert.KernelIdeal.Block Cert.Scorer
open Idealize.ShloMosaic.ValueIdx

variable (m : (ℓ : Loc nD τ sig) → Buf (Elt Ideal) ℓ)

/-- Every sample's raw scores, as the `[8, 1, 8192]` array the launch fills. -/
def lines (c : Dev nD) : FVec Ideal S8x1x8192 .f32 := fun i =>
  rawScoreAt (nodeArg m c) (locArg m c) (graphArg m c) (locgArg m c) (w1Arg m c) (b1Arg m c) (w2Arg m c)
    ⟨(i 0).val, (i 0).isLt⟩ ⟨(i 2).val, (i 2).isLt⟩

/-! ## The index maps, decided over the grid -/

/-- Point `t` = (sample, run): the node and location windows sit at the output's (sample, run); the context window at its
    sample; the two weight windows at the origin; the output's middle index is 0 and its ends stay in range. -/
theorem idx_facts : ∀ t : Fin cfg0.N,
    win0_0.index t (0 : Fin 3) = win0_5.index t (0 : Fin 3) ∧ win0_0.index t (1 : Fin 3) = win0_5.index t (2 : Fin 3)
    ∧ win0_0.index t (2 : Fin 3) = 0
    ∧ win0_1.index t (0 : Fin 4) = win0_5.index t (0 : Fin 3) ∧ win0_1.index t (1 : Fin 4) = win0_5.index t (2 : Fin 3)
    ∧ win0_1.index t (2 : Fin 4) = 0 ∧ win0_1.index t (3 : Fin 4) = 0
    ∧ win0_2.index t (0 : Fin 3) = win0_5.index t (0 : Fin 3) ∧ win0_2.index t (1 : Fin 3) = 0
    ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) ≤ 7 ∧ win0_5.index t (1 : Fin 3) = 0 ∧ win0_5.index t (2 : Fin 3) ≤ 3 :=
  (by decide +kernel : ∀ t : Fin grid0.N, _)

/-- Every (sample, run) is some point's. -/
theorem idx_onto : ∀ (q0 : Fin 8) (q2 : Fin 4), ∃ t : Fin cfg0.N, win0_5.index t = ![q0.val, 0, q2.val] :=
  (by decide +kernel : ∀ (q0 : Fin 8) (q2 : Fin 4), ∃ t : Fin grid0.N, win0_5.index t = ![q0.val, 0, q2.val])

/-! ## An input block's element is its array's element at block index × block size + coordinate -/

theorem read_nodes (c : Dev nD) (t : Fin cfg0.N) (y : S1x128x512.Idx) (k : S8x512x512.Idx)
    (h0 : win0_0.index t (0 : Fin 3) * 1 + 1 * (y 0).val = (k 0).val)
    (h1 : win0_0.index t (1 : Fin 3) * 128 + 1 * (y 1).val = (k 1).val)
    (h2 : win0_0.index t (2 : Fin 3) * 512 + 1 * (y 2).val = (k 2).val) :
    (iblk m c 0 t : FVec Ideal S1x128x512 .f32) y = nodeArg m c k := by
  unfold iblk
  rw [View.read_apply]
  show (V m c main_arg0 : FVec Ideal S8x512x512 .f32) _ = _
  rw [V_main_arg0]
  refine congrArg (nodeArg m c) (funext fun a => Fin.ext ?_)
  match a with
  | ⟨0, _⟩ => exact h0
  | ⟨1, _⟩ => exact h1
  | ⟨2, _⟩ => exact h2

theorem read_locs (c : Dev nD) (t : Fin cfg0.N) (y : S1x128x16x512.Idx) (k : S8x512x16x512.Idx)
    (h0 : win0_1.index t (0 : Fin 4) * 1 + 1 * (y 0).val = (k 0).val)
    (h1 : win0_1.index t (1 : Fin 4) * 128 + 1 * (y 1).val = (k 1).val)
    (h2 : win0_1.index t (2 : Fin 4) * 16 + 1 * (y 2).val = (k 2).val)
    (h3 : win0_1.index t (3 : Fin 4) * 512 + 1 * (y 3).val = (k 3).val) :
    (iblk m c 1 t : FVec Ideal S1x128x16x512 .f32) y = locArg m c k := by
  unfold iblk
  rw [View.read_apply]
  show (V m c main_arg1 : FVec Ideal S8x512x16x512 .f32) _ = _
  rw [V_main_arg1]
  refine congrArg (locArg m c) (funext fun a => Fin.ext ?_)
  match a with
  | ⟨0, _⟩ => exact h0
  | ⟨1, _⟩ => exact h1
  | ⟨2, _⟩ => exact h2
  | ⟨3, _⟩ => exact h3

theorem read_ctx (c : Dev nD) (t : Fin cfg0.N) (y : S1x1x512.Idx) (k : S8x1x512.Idx)
    (h0 : win0_2.index t (0 : Fin 3) * 1 + 1 * (y 0).val = (k 0).val)
    (h1 : win0_2.index t (1 : Fin 3) * 1 + 1 * (y 1).val = (k 1).val)
    (h2 : win0_2.index t (2 : Fin 3) * 512 + 1 * (y 2).val = (k 2).val) :
    (iblk m c 2 t : FVec Ideal S1x1x512 .f32) y = (V m c main_v10 : FVec Ideal S8x1x512 .f32) k := by
  unfold iblk
  rw [View.read_apply]
  show (V m c main_v10 : FVec Ideal S8x1x512 .f32) _ = _
  refine congrArg (V m c main_v10 : FVec Ideal S8x1x512 .f32) (funext fun a => Fin.ext ?_)
  match a with
  | ⟨0, _⟩ => exact h0
  | ⟨1, _⟩ => exact h1
  | ⟨2, _⟩ => exact h2

theorem read_stacked (c : Dev nD) (t : Fin cfg0.N) (y k : S1024x512.Idx)
    (h0 : win0_3.index t (0 : Fin 2) * 1024 + 1 * (y 0).val = (k 0).val)
    (h1 : win0_3.index t (1 : Fin 2) * 512 + 1 * (y 1).val = (k 1).val) :
    (iblk m c 3 t : FVec Ideal S1024x512 .bf16) y = (V m c main_v12 : FVec Ideal S1024x512 .bf16) k := by
  unfold iblk
  rw [View.read_apply]
  show (V m c main_v12 : FVec Ideal S1024x512 .bf16) _ = _
  refine congrArg (V m c main_v12 : FVec Ideal S1024x512 .bf16) (funext fun a => Fin.ext ?_)
  match a with
  | ⟨0, _⟩ => exact h0
  | ⟨1, _⟩ => exact h1

theorem read_w2row (c : Dev nD) (t : Fin cfg0.N) (y k : S1x512.Idx)
    (h0 : win0_4.index t (0 : Fin 2) * 1 + 1 * (y 0).val = (k 0).val)
    (h1 : win0_4.index t (1 : Fin 2) * 512 + 1 * (y 1).val = (k 1).val) :
    (iblk m c 4 t : FVec Ideal S1x512 .f32) y = (V m c main_v13 : FVec Ideal S1x512 .f32) k := by
  unfold iblk
  rw [View.read_apply]
  show (V m c main_v13 : FVec Ideal S1x512 .f32) _ = _
  refine congrArg (V m c main_v13 : FVec Ideal S1x512 .f32) (funext fun a => Fin.ext ?_)
  match a with
  | ⟨0, _⟩ => exact h0
  | ⟨1, _⟩ => exact h1

/-! ## The body's two loads of the stacked weights: its upper and its lower 512 rows -/

theorem ld_top (X : FVec Ideal S1024x512 .bf16) (d f : Fin 512) :
    View.ld (Val := Elt Ideal) (e' := .bf16) X r0_0 (ix2 d f)
      = X (ix2 (⟨d.val, by have := d.isLt; omega⟩ : Fin 1024) f) := by
  show X (r0_0.idx (ix2 d f)) = _
  refine congrArg X (funext fun a => Fin.ext ?_)
  match a with
  | ⟨0, _⟩ => show 0 + 1 * d.val = d.val; omega
  | ⟨1, _⟩ => show 0 + 1 * f.val = f.val; omega

theorem ld_bottom (X : FVec Ideal S1024x512 .bf16) (d f : Fin 512) :
    View.ld (Val := Elt Ideal) (e' := .bf16) X r0_1 (ix2 d f)
      = X (ix2 (⟨512 + d.val, by have := d.isLt; omega⟩ : Fin 1024) f) := by
  show X (r0_1.idx (ix2 d f)) = _
  refine congrArg X (funext fun a => Fin.ext ?_)
  match a with
  | ⟨0, _⟩ => show 512 + 1 * d.val = 512 + d.val; omega
  | ⟨1, _⟩ => show 0 + 1 * f.val = f.val; omega

/-! ## What a point writes back -/

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- WHAT POINT `t` WRITES BACK is block `t` of the array of raw scores. -/
theorem flushed_eq (c : Dev nD) (t : Fin cfg0.N) :
    (dats m 0 c).flushed 5 t = ((cfg0.win 5).blk t).view.read (Elt Ideal) (lines m c) := by
  show (cfg0.win 5).cut (grid0.coords t) ((dats m 0 c).after 5 t) = _
  rw [after0_5]
  unfold out0_5
  rw [View.canon_unit_zero hz3]
  simp only [View.ld_unit_zero (S := S1x128x512) hz3, View.ld_unit_zero (S := S1x1x512) hz3,
    View.ld_unit_zero (S := S1x128x16x512) hz4, View.ld_unit_zero (S := S1x512) hz2]
  obtain ⟨e00, e01, e02, e10, e11, e12, e13, e20, e21, e22, e30, e31, e40, e41, hb, e51, hni⟩ := idx_facts t
  funext y
  have hy0 : (y 0).val < 1 := (y 0).isLt
  have hy2 : (y 2).val < 2048 := (y 2).isLt
  rw [View.read_apply]
  show k0_pay1 (F := Ideal) (View.ld (iblk m c 3 t) r0_0) (View.ld (iblk m c 3 t) r0_1) (iblk m c 0 t)
      (iblk m c 2 t) (iblk m c 1 t) (iblk m c 4 t) y = lines m c (((cfg0.win 5).blk t).view.emb y)
  refine (line_apply (nodeArg m c) (locArg m c) (graphArg m c) (locgArg m c) (w1Arg m c) (b1Arg m c) (w2Arg m c)
      (View.ld (iblk m c 3 t) r0_0) (View.ld (iblk m c 3 t) r0_1) (iblk m c 0 t) (iblk m c 2 t) (iblk m c 1 t)
      (iblk m c 4 t) ⟨win0_5.index t (0 : Fin 3), by omega⟩ ⟨win0_5.index t (2 : Fin 3), by omega⟩
      ?hx ?hy ?hctx ?hwn ?hwloc ?hw2 y (y 0) (y 1) ⟨(y 2).val, hy2⟩ ?hi ?h).trans ?_
  case hx =>
    intro p d
    refine read_nodes m c t (ix3 (0 : Fin 1) p d) _ ?_ ?_ ?_
    · show win0_0.index t (0 : Fin 3) * 1 + 1 * 0 = win0_5.index t (0 : Fin 3); omega
    · show win0_0.index t (1 : Fin 3) * 128 + 1 * p.val = win0_5.index t (2 : Fin 3) * 128 + p.val; omega
    · show win0_0.index t (2 : Fin 3) * 512 + 1 * d.val = d.val; omega
  case hy =>
    intro p q d
    refine read_locs m c t (ix4 (0 : Fin 1) p q d) _ ?_ ?_ ?_ ?_
    · show win0_1.index t (0 : Fin 4) * 1 + 1 * 0 = win0_5.index t (0 : Fin 3); omega
    · show win0_1.index t (1 : Fin 4) * 128 + 1 * p.val = win0_5.index t (2 : Fin 3) * 128 + p.val; omega
    · show win0_1.index t (2 : Fin 4) * 16 + 1 * q.val = q.val; omega
    · show win0_1.index t (3 : Fin 4) * 512 + 1 * d.val = d.val; omega
  case hctx =>
    intro f
    refine (read_ctx m c t (ix3 (0 : Fin 1) (0 : Fin 1) f)
      (ix3 (⟨win0_5.index t (0 : Fin 3), by omega⟩ : Fin 8) (0 : Fin 1) f) ?_ ?_ ?_).trans
      (ctx_entry m c ⟨win0_5.index t (0 : Fin 3), by omega⟩ 0 f)
    · show win0_2.index t (0 : Fin 3) * 1 + 1 * 0 = win0_5.index t (0 : Fin 3); omega
    · show win0_2.index t (1 : Fin 3) * 1 + 1 * 0 = 0; omega
    · show win0_2.index t (2 : Fin 3) * 512 + 1 * f.val = f.val; omega
  case hwn =>
    intro d f
    have hd := d.isLt
    refine (ld_top (iblk m c 3 t) d f).trans ((read_stacked m c t (ix2 (⟨d.val, by omega⟩ : Fin 1024) f)
      (ix2 (⟨d.val, by omega⟩ : Fin 1024) f) ?_ ?_).trans (stacked_top_entry m c ⟨d.val, by omega⟩ d f rfl))
    · show win0_3.index t (0 : Fin 2) * 1024 + 1 * d.val = d.val; omega
    · show win0_3.index t (1 : Fin 2) * 512 + 1 * f.val = f.val; omega
  case hwloc =>
    intro d f
    have hd := d.isLt
    refine (ld_bottom (iblk m c 3 t) d f).trans ((read_stacked m c t (ix2 (⟨512 + d.val, by omega⟩ : Fin 1024) f)
      (ix2 (⟨512 + d.val, by omega⟩ : Fin 1024) f) ?_ ?_).trans (stacked_bottom_entry m c ⟨512 + d.val, by omega⟩ d f rfl))
    · show win0_3.index t (0 : Fin 2) * 1024 + 1 * (512 + d.val) = 512 + d.val; omega
    · show win0_3.index t (1 : Fin 2) * 512 + 1 * f.val = f.val; omega
  case hw2 =>
    intro f
    refine (read_w2row m c t (ix2 (0 : Fin 1) f) (ix2 (0 : Fin 1) f) ?_ ?_).trans (w2row_entry m c 0 f)
    · show win0_4.index t (0 : Fin 2) * 1 + 1 * 0 = 0; omega
    · show win0_4.index t (1 : Fin 2) * 512 + 1 * f.val = f.val; omega
  case hi =>
    funext a
    match a with
    | ⟨0, _⟩ => rfl
    | ⟨1, _⟩ => rfl
    | ⟨2, _⟩ => rfl
  case h =>
    show win0_5.index t (2 : Fin 3) * 2048 + (y 2).val < 8192
    omega
  unfold lines
  refine congrArg₂ (rawScoreAt (nodeArg m c) (locArg m c) (graphArg m c) (locgArg m c) (w1Arg m c) (b1Arg m c) (w2Arg m c))
    (Fin.ext ?_) (Fin.ext ?_)
  · show win0_5.index t (0 : Fin 3) = win0_5.index t (0 : Fin 3) * 1 + 1 * (y 0).val
    omega
  · show win0_5.index t (2 : Fin 3) * 2048 + (y 2).val = win0_5.index t (2 : Fin 3) * 2048 + 1 * (y 2).val
    omega

/-! ## The blocks tile the array -/

/-- An index of the array is in point `t`'s block iff each coordinate is in the block's range on its axis. -/
theorem mem_blk (t : Fin cfg0.N) (i : S8x1x8192.Idx) :
    i ∈ ((cfg0.win 5).blk t).view.set ↔ ∀ a : Fin 3, win0_5.index t a * S1x1x2048.size a ≤ (i a).val
      ∧ (i a).val < win0_5.index t a * S1x1x2048.size a + S1x1x2048.size a := by
  show i ∈ ((View.whole main_v14).slice (win0_5.rect t)).set ↔ _
  rw [View.set_slice_whole, Rect.mem_set_unit]
  exact Iff.rfl

/-- Position `(b, 0, j)` is in the block of the point (sample `b`, run `j / 2048`). -/
theorem cover (i : S8x1x8192.Idx) :
    ∃ t : Fin cfg0.N, (cfg0.win 5).flush t = true ∧ i ∈ ((cfg0.win 5).blk t).view.set := by
  have hi0 : (i 0).val < 8 := (i 0).isLt
  have hi1 : (i 1).val < 1 := (i 1).isLt
  have hi2 : (i 2).val < 8192 := (i 2).isLt
  obtain ⟨t, ht⟩ := idx_onto ⟨(i 0).val, hi0⟩ ⟨(i 2).val / 2048, by omega⟩
  have q0 : win0_5.index t (0 : Fin 3) = (i 0).val := congrFun ht 0
  have q1 : win0_5.index t (1 : Fin 3) = 0 := congrFun ht 1
  have q2 : win0_5.index t (2 : Fin 3) = (i 2).val / 2048 := congrFun ht 2
  refine ⟨t, flush0_5 t, ?_⟩
  rw [mem_blk]
  intro a
  match a with
  | ⟨0, _⟩ =>
    show win0_5.index t (0 : Fin 3) * 1 ≤ (i 0).val ∧ (i 0).val < win0_5.index t (0 : Fin 3) * 1 + 1
    omega
  | ⟨1, _⟩ =>
    show win0_5.index t (1 : Fin 3) * 1 ≤ (i 1).val ∧ (i 1).val < win0_5.index t (1 : Fin 3) * 1 + 1
    omega
  | ⟨2, _⟩ =>
    show win0_5.index t (2 : Fin 3) * 2048 ≤ (i 2).val ∧ (i 2).val < win0_5.index t (2 : Fin 3) * 2048 + 2048
    omega

/-- THE ARRAY AFTER THE LAUNCH holds every sample's raw scores. -/
theorem final (c : Dev nD) : (dats m 0 c).arrAt 5 cfg0.N = lines m c :=
  (dats m 0 c).arrAt_eq_of_cover 5 (lines m c) (fun t _ => flushed_eq m c t) (cover)

end Cert.KernelIdeal.Lines

end
-- ==== Proof.LibScalarCell.lean ====
/-
  A one-element vector read as a scalar.

  A scalar taken out of a one-element vector (a reshape from `[1]` to rank 0) holds that one element: the scalar shape
  has a single index, the vector a single index, and the cast sends the one to the other.
-/
import Idealize.ShloMosaic.Lib.Pipeline.Value
import Idealize.ShloMosaic.Lib.ValueIdx

namespace Idealize.ShloMosaic.ScalarCell

open Idealize.ShloMosaic Idealize.ShloMosaic.ValueIdx

variable {α : Type}

/-- A `[1]` vector cast to the scalar shape reads, at the scalar's one index, the vector's one element. -/
theorem shapeCast_1_scalar_apply (x : (⟨1, ![1]⟩ : Shape).Idx → α)
    (h : (⟨1, ![1]⟩ : Shape).ShapeCasts ⟨0, ![]⟩) (j : (⟨0, ![]⟩ : Shape).Idx) :
    shapeCast ⟨0, ![]⟩ x h j = x (ix1 (0 : Fin 1)) :=
  shapeCast_apply x h j (ix1 (0 : Fin 1)) (by
    have h0 := ((⟨0, ![]⟩ : Shape).rowMajor j).isLt
    have h1 : (⟨0, ![]⟩ : Shape).numel = 1 := by decide
    rw [Shape.rowMajor_val_one]
    show 0 = ((⟨0, ![]⟩ : Shape).rowMajor j).val
    omega)

end Idealize.ShloMosaic.ScalarCell
-- ==== Proof.KernelRun.lean ====
/-
  The kernel program's result.

  After the launch the host adds the output bias to every entry of the `[8, 1, 8192]` array of raw scores and drops the
  array's middle unit axis. Entry `(b, j)` of the result is therefore the raw score of sample `b`'s pair number `j` plus
  the bias: the scorer's function. The run of the whole program — host operations, launch, host operations — is the
  generated frame run; its post names what the lines after the launch compute from the array the launch leaves, and that
  array holds the raw scores.
-/
import proofs.«141779_j90701119357586_2_alg».proof.Proof.KernelArray
import proofs.«141779_j90701119357586_2_alg».proof.Proof.LibScalarCell
import Idealize.ShloMosaic.Lib.StableHlo.Run

noncomputable section

open Idealize.ShloMosaic Idealize.ShloMosaic.TcCoe Idealize.SL.Sem Idealize.ShloMosaic.StableHlo
open Idealize.ShloMosaic.Pipeline (Dat)

namespace Cert.KernelIdeal.Result

open Cert.KernelIdeal Cert.KernelIdeal.Gen Cert.KernelIdeal.Entry Cert.KernelIdeal.Lines Cert.Scorer
open Idealize.ShloMosaic.ValueIdx

variable (m : (ℓ : Loc nD τ sig) → Buf (Elt Ideal) ℓ) (ρ : Dev nD → PrngReg)

/-- The scorer's function of the eight argument arrays on core `c`. -/
abbrev result (c : Dev nD) : FVec Ideal S8x8192 .f32 :=
  scores (nodeArg m c) (locArg m c) (graphArg m c) (locgArg m c) (w1Arg m c) (b1Arg m c) (w2Arg m c) (b2Arg m c)

/-- Raw scores plus the bias, the middle unit axis dropped: the scorer's function. -/
theorem biased_eq (c : Dev nD) :
    shapeCast S8x8192 (addf (lines m c)
        (broadcastInDim S8x1x8192 ![] bcast_S_S8x1x8192 (shapeCast S_ (b2Arg m c) shapeCasts_S1_S_)))
      shapeCasts_S8x1x8192_S8x8192 = result m c := by
  funext i
  obtain ⟨b, j, rfl⟩ : ∃ (b : Fin 8) (j : Fin 8192), i = ix2 b j := ⟨i 0, i 1, eq_ix2 i⟩
  refine (shapeCast_apply _ _ (ix2 b j) (ix3 b (0 : Fin 1) j) (by
    rw [Shape.rowMajor_val_three, Shape.rowMajor_val_two]
    show (b.val * 1 + 0) * 8192 + j.val = b.val * 8192 + j.val
    omega)).trans ?_
  rw [addf_apply]
  unfold result scores lines
  refine congrArg₂ (· + ·) rfl ?_
  refine (broadcastInDim_apply _ _ _ (ix3 b (0 : Fin 1) j) ix0 (fun a => a.elim0)).trans ?_
  exact ScalarCell.shapeCast_1_scalar_apply (b2Arg m c) _ _

/-- What the lines after the launch leave in the result buffer. -/
theorem tail_eq (c : Dev nD) :
    (Pipeline.afterTail₀ cfgs (dats m) 0 (V0 m) [hostOps1] c main_v18 : FVec Ideal S8x8192 .f32) = result m c := by
  have e14 : (Pipeline.withArrays (cfgs 0).spec c (V0 m c) (fun w => (dats m 0 c).arrAt w (cfgs 0).N)
      (Proc.devRef .tc main_v14) : FVec Ideal S8x1x8192 .f32) = lines m c :=
    (Pipeline.withArrays_arr spec0 launch0.win.arr_inj c _ _ 5).trans (final m c)
  have e7 : (Pipeline.withArrays (cfgs 0).spec c (V0 m c) (fun w => (dats m 0 c).arrAt w (cfgs 0).N)
      (Proc.devRef .tc main_arg7) : FVec Ideal S1 .f32) = b2Arg m c :=
    (Pipeline.withArrays_of_ne _ c (V0 m c) _ main_arg7
      (by exact (by decide : ∀ w, Pipeline.arrRef spec0 w ≠ main_arg7))).trans (V_main_arg7 m c)
  rw [← biased_eq]
  unfold Pipeline.afterTail₀
  show StableHlo.after hostOps1 _ (Proc.devRef .tc main_v18) = _
  after_results
  rw [e14, e7]
  rfl

/-- THE KERNEL PROGRAM'S RUN: every weakly fair execution terminates with the result buffer at the scorer's function of
    the argument arrays, and the arguments unchanged. -/
theorem run : θ_run defs (onTc (τ := τ) (main (F := Ideal))) ⟨m, fun _ => 0, ρ⟩ (fun r => ∀ c : Dev nD,
      r.2.mem ((c.tc : Thread nD τ).loc main_v18) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v18 (Pipeline.mem_restRefs_of main_v18 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.Result

end
-- ==== Proof.RefScores.lean ====
/-
  The reference computes the scorer's function.

  The reference adds the four terms of a pre-activation from left to right — node, graph, global location, location —
  then the bias, rectifies, contracts with the second weight matrix, adds the output bias and lists the pairs of a
  sample in the order `16 · n + k`. Read one operation at a time at an index, each stage is the stage before it at the
  index the operation's layout names; the four matrix products are inner products over the 512 rows of a block of the
  first weight matrix, the block's first row at 0, 512, 1024 and 1536. What is left to check is that the composed
  indices are the coordinates the specification writes: position `j` of a sample's row is the pair
  `(j / 16, j % 16)`, and a broadcast reads its operand at the coordinates it has.
-/
import proofs.«141779_j90701119357586_2_alg».proof.Proof.Gen.ReferenceIdeal.Read
import proofs.«141779_j90701119357586_2_alg».proof.Proof.ScoreSpec
import proofs.«141779_j90701119357586_2_alg».proof.Proof.LibScalarCell

noncomputable section

namespace Cert.ReferenceIdeal.RefValue

open Cert.ReferenceIdeal Cert.ReferenceIdeal.Read Idealize.ShloMosaic Idealize.ShloMosaic.ValueIdx
open scoped BigOperators

variable (x0 : FVec Ideal S8x512x512 .f32) (x1 : FVec Ideal S8x512x16x512 .f32) (x2 x3 : FVec Ideal S8x512 .f32)
  (x4 : FVec Ideal S2048x512 .f32) (x5 : FVec Ideal S512 .f32) (x6 : FVec Ideal S512x1 .f32) (x7 : FVec Ideal S1 .f32)

/-- The sum of the four terms and the bias, before rectifying, is the specification's pre-activation. -/
theorem preact_apply (b : Fin 8) (n : Fin 512) (k : Fin 16) (f : Fin 512) :
    val_main_v19 (F := Ideal) x0 x1 x2 x3 x4 x5 (ix4 b n k f) = Cert.Scorer.hidden x0 x1 x2 x3 x4 x5 b n k f := by
  rw [val_main_v19_apply, val_main_v16_apply, val_main_v15_apply, val_main_v13_apply, val_main_v9_apply,
    val_main_v5_apply, val_main_v8_apply, val_main_v7_apply, val_main_v12_apply, val_main_v11_apply,
    val_main_v18_apply, val_main_v17_apply, val_main_v4_apply, val_main_v6_apply, val_main_v10_apply,
    val_main_v14_apply]
  simp only [val_main_v0_apply, val_main_v1_apply, val_main_v2_apply, val_main_v3_apply, Ideal.addf_def]
  unfold Cert.Scorer.hidden Cert.Scorer.nodeTerm Cert.Scorer.graphTerm Cert.Scorer.locgTerm Cert.Scorer.locTerm
  refine congrArg₂ (· + ·) (congrArg₂ (· + ·) (congrArg₂ (· + ·) (congrArg₂ (· + ·) ?_ ?_) ?_) ?_) ?_
  · refine Finset.sum_congr rfl fun d _ => congrArg₂ (· * ·) (congrArg x0 ?_) (congrArg x4 ?_)
    · funext a; apply Fin.ext
      match a with
      | ⟨0, _⟩ => rfl
      | ⟨1, _⟩ => rfl
      | ⟨2, _⟩ => rfl
    · funext a; apply Fin.ext
      match a with
      | ⟨0, _⟩ => show d.val = 0 + d.val; omega
      | ⟨1, _⟩ => rfl
  · refine Finset.sum_congr rfl fun d _ => congrArg₂ (· * ·) (congrArg x2 ?_) (congrArg x4 ?_)
    · funext a; apply Fin.ext
      match a with
      | ⟨0, _⟩ => rfl
      | ⟨1, _⟩ => rfl
    · funext a; apply Fin.ext
      match a with
      | ⟨0, _⟩ => rfl
      | ⟨1, _⟩ => rfl
  · refine Finset.sum_congr rfl fun d _ => congrArg₂ (· * ·) (congrArg x3 ?_) (congrArg x4 ?_)
    · funext a; apply Fin.ext
      match a with
      | ⟨0, _⟩ => rfl
      | ⟨1, _⟩ => rfl
    · funext a; apply Fin.ext
      match a with
      | ⟨0, _⟩ => rfl
      | ⟨1, _⟩ => rfl
  · refine Finset.sum_congr rfl fun d _ => congrArg₂ (· * ·) (congrArg x1 ?_) (congrArg x4 ?_)
    · funext a; apply Fin.ext
      match a with
      | ⟨0, _⟩ => rfl
      | ⟨1, _⟩ => rfl
      | ⟨2, _⟩ => rfl
      | ⟨3, _⟩ => rfl
    · funext a; apply Fin.ext
      match a with
      | ⟨0, _⟩ => rfl
      | ⟨1, _⟩ => rfl
  · refine congrArg x5 ?_
    funext a; apply Fin.ext
    match a with
    | ⟨0, _⟩ => rfl

/-- The contraction with the second weight matrix, at the pair `(b, n, k)`, is the raw score. -/
theorem raw_apply (b : Fin 8) (n : Fin 512) (k : Fin 16) :
    val_main_v21 (F := Ideal) x0 x1 x2 x3 x4 x5 x6 (ix4 b n k (0 : Fin 1)) = Cert.Scorer.rawScore x0 x1 x2 x3 x4 x5 x6 b n k := by
  rw [val_main_v21_apply]
  unfold Cert.Scorer.rawScore
  refine Finset.sum_congr rfl fun f _ => ?_
  have e : lidx_main_v21 (ix4 b n k (0 : Fin 1)) f = ix4 b n k f := by
    funext a; apply Fin.ext
    match a with
    | ⟨0, _⟩ => rfl
    | ⟨1, _⟩ => rfl
    | ⟨2, _⟩ => rfl
    | ⟨3, _⟩ => rfl
  rw [e, val_main_v20_apply, preact_apply, val_main_call0_v0_apply, val_main_call0_cst_apply]
  refine congrArg₂ (· * ·) rfl (congrArg x6 ?_)
  funext a; apply Fin.ext
  match a with
  | ⟨0, _⟩ => rfl
  | ⟨1, _⟩ => rfl

/-- THE REFERENCE'S RESULT is the specification's array of scores. -/
theorem result_eq :
    val_main_v26 (F := Ideal) x0 x1 x2 x3 x4 x5 x6 x7 = Cert.Scorer.scores x0 x1 x2 x3 x4 x5 x6 x7 := by
  funext i
  obtain ⟨b, j, rfl⟩ : ∃ (b : Fin 8) (j : Fin 8192), i = ix2 b j := ⟨i 0, i 1, eq_ix2 i⟩
  have hb := b.isLt
  have hj := j.isLt
  rw [val_main_v26_apply, val_main_v25_apply, val_main_v22_apply, val_main_v24_apply]
  have e : idx_main_v22 (idx_main_v26 (ix2 b j))
      = ix4 b (⟨j.val / 16, by omega⟩ : Fin 512) (⟨j.val % 16, by omega⟩ : Fin 16) (0 : Fin 1) := by
    funext a; apply Fin.ext
    match a with
    | ⟨0, _⟩ =>
      show ((((b.val * 8192 + j.val) / 8192) * 512 + (b.val * 8192 + j.val) / 16 % 512) * 16 + (b.val * 8192 + j.val) % 16) / 8192 = b.val
      omega
    | ⟨1, _⟩ =>
      show ((((b.val * 8192 + j.val) / 8192) * 512 + (b.val * 8192 + j.val) / 16 % 512) * 16 + (b.val * 8192 + j.val) % 16) / 16 % 512 = j.val / 16
      omega
    | ⟨2, _⟩ =>
      show ((((b.val * 8192 + j.val) / 8192) * 512 + (b.val * 8192 + j.val) / 16 % 512) * 16 + (b.val * 8192 + j.val) % 16) / 1 % 16 = j.val % 16
      omega
    | ⟨3, _⟩ => rfl
  rw [e, raw_apply]
  unfold Cert.Scorer.scores Cert.Scorer.rawScoreAt
  refine congrArg₂ (· + ·) rfl ?_
  unfold val_main_v23
  exact ScalarCell.shapeCast_1_scalar_apply x7 _ _

end Cert.ReferenceIdeal.RefValue

end
-- ==== Proof.lean ====
/-
  The certificate: a fused two-layer scorer against its reference, on the extended reals.

  Both programs compute, for every sample `b`, node `n` and location `k`, the score
      b2 + Σ_f max(0, h_f) · W2[f],   h_f = node[b,n]·W1[0:512, f] + graph[b]·W1[512:1024, f]
                                           + global[b]·W1[1024:1536, f] + loc[b,n,k]·W1[1536:2048, f] + b1[f],
  listed per sample at position `16 · n + k` (Proof/ScoreSpec.lean). The reference adds the five terms of `h_f` from
  left to right (Proof/RefScores.lean, over the generated reading of its run). The kernel program adds the two
  per-sample terms and the bias on the host, the node's term in the body, then the location's term; it takes its two
  matrix factors out of one stacked copy of rows 0–511 and 1536–2047 of `W1`, computes 128 nodes of one sample per grid
  point, and adds `b2` after the launch (Proof/BlockScores.lean, BlockLine.lean, RegionEntry.lean, KernelArray.lean,
  KernelRun.lean). The two groupings of `h_f` are equal because addition of extended reals is commutative and
  associative, infinities included: the precondition (every input finite) is not used by the value claim. Changes of
  float format are the identity at the ideal values, and the idealization rewrote no operation, so `preserves` has
  nothing to state. The three frames are the generated ones; the reference's is its generated run with the result
  dropped.
-/
import proofs.«141779_j90701119357586_2_alg».proof.Defs
import proofs.«141779_j90701119357586_2_alg».proof.Proof.Gen.Kernel
import proofs.«141779_j90701119357586_2_alg».proof.Proof.Gen.Kernel.Skeleton
import proofs.«141779_j90701119357586_2_alg».proof.Proof.Gen.Kernel.Launch
import proofs.«141779_j90701119357586_2_alg».proof.Proof.Gen.Kernel.Points
import proofs.«141779_j90701119357586_2_alg».proof.Proof.Gen.Kernel.Frame
import proofs.«141779_j90701119357586_2_alg».proof.Proof.Gen.KernelIdeal
import proofs.«141779_j90701119357586_2_alg».proof.Proof.Gen.KernelIdeal.Skeleton
import proofs.«141779_j90701119357586_2_alg».proof.Proof.Gen.KernelIdeal.Launch
import proofs.«141779_j90701119357586_2_alg».proof.Proof.Gen.KernelIdeal.Points
import proofs.«141779_j90701119357586_2_alg».proof.Proof.Gen.KernelIdeal.Frame
import proofs.«141779_j90701119357586_2_alg».proof.Proof.Gen.ReferenceIdeal
import proofs.«141779_j90701119357586_2_alg».proof.Proof.Gen.ReferenceIdeal.Run
import proofs.«141779_j90701119357586_2_alg».proof.Proof.Gen.ReferenceIdeal.Read
import proofs.«141779_j90701119357586_2_alg».proof.Proof.Gen.Pre_finite_inputs
import proofs.«141779_j90701119357586_2_alg».proof.Proof.KernelRun
import proofs.«141779_j90701119357586_2_alg».proof.Proof.RefScores
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote nothing: there is nothing to preserve. -/
theorem preserves : Cert.preserves_Kernel_KernelIdeal := trivial

/-- Both programs end with the scorer's function of the (agreeing) argument arrays in their result buffers. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v26_eq, Cert.ReferenceIdeal.RefValue.result_eq, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
